-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S524288x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S2048x128 : Shape := ⟨2, ![2048, 128]⟩
abbrev S2048x8x16 : Shape := ⟨3, ![2048, 8, 16]⟩
abbrev S2048x16x8 : Shape := ⟨3, ![2048, 16, 8]⟩
abbrev S2048x16x16 : Shape := ⟨3, ![2048, 16, 16]⟩
abbrev S2048x16 : Shape := ⟨2, ![2048, 16]⟩
abbrev S2048x16x1 : Shape := ⟨3, ![2048, 16, 1]⟩

abbrev nBuf : Space → Nat
  | .hbm => 18
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S524288x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S2048x128, .f32⟩
  | .local _ .vmem, ⟨11, _⟩ => ⟨S2048x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x128_S128x128_1_0 : S128x128.Transposes [1, 0] S128x128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S2048x8x16 : S2048x128.ShapeCasts S2048x8x16
  transposes_S2048x8x16_p0_2_1_S2048x16x8 : S2048x8x16.Transposes [0, 2, 1] S2048x16x8
  reduces_S2048x16x16_S2048x16 : S2048x16x16.Reduces [2] S2048x16
  shapeCasts_S2048x16_S2048x16x1 : S2048x16.ShapeCasts S2048x16x1
  broadcasts_S2048x16x1_S2048x16x16 : S2048x16x1.Broadcasts S2048x16x16
  transposes_S2048x16x8_p0_2_1_S2048x8x16 : S2048x16x8.Transposes [0, 2, 1] S2048x8x16
  shapeCasts_S2048x8x16_S2048x128 : S2048x8x16.ShapeCasts S2048x128
  dot_S2048x128_S128x128_S2048x128_1_0_0_1_n_n_wf : DotDims.WF S2048x128 S128x128 S2048x128 [1] [0] [0] [1] [] []
  dot_S2048x16x8_S2048x16x8_S2048x16x16_2_2_1_1_0_0_wf : DotDims.WF S2048x16x8 S2048x16x8 S2048x16x16 [2] [2] [1] [1] [0] [0]
  dot_S2048x16x16_S2048x16x8_S2048x16x8_2_1_1_2_0_0_wf : DotDims.WF S2048x16x16 S2048x16x8 S2048x16x8 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S524288x128.size a
  hwx0_0 : ∀ i : grid0.Coords, EltTy.bits .f32 = 32 ∨ (Rect.block (s := S524288x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S524288x128.size a
  hwx0_9 : ∀ i : grid0.Coords, EltTy.bits .f32 = 32 ∨ (Rect.block (s := S524288x128) S2048x128.size (cc0_transform_9 i) (hinb0_9 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x16x8_S2048x16x8_S2048x16x16_2_2_1_1_0_0 : DotDims S2048x16x8 S2048x16x8 S2048x16x16 where
  lhsContracting := [2]
  rhsContracting := [2]
  lhsNonContracting := [1]
  rhsNonContracting := [1]
  lhsBatch := [0]
  rhsBatch := [0]
  wf := dot_S2048x16x8_S2048x16x8_S2048x16x16_2_2_1_1_0_0_wf
def dot_S2048x16x16_S2048x16x8_S2048x16x8_2_1_1_2_0_0 : DotDims S2048x16x16 S2048x16x8 S2048x16x8 where
  lhsContracting := [2]
  rhsContracting := [1]
  lhsNonContracting := [1]
  rhsNonContracting := [2]
  lhsBatch := [0]
  rhsBatch := [0]
  wf := dot_S2048x16x16_S2048x16x8_S2048x16x8_2_1_1_2_0_0_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S524288x8x16 : Shape := ⟨3, ![524288, 8, 16]⟩
abbrev S524288x16x8 : Shape := ⟨3, ![524288, 16, 8]⟩
abbrev S524288x16x16 : Shape := ⟨3, ![524288, 16, 16]⟩
abbrev S_ : Shape := ⟨0, ![]⟩
abbrev S524288x16 : Shape := ⟨2, ![524288, 16]⟩
abbrev S524288x16x1 : Shape := ⟨3, ![524288, 16, 1]⟩

abbrev nBuf : Space → Nat
  | .hbm => 57
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S524288x128, .f32⟩
  | .hbm, ⟨11, _⟩ => ⟨S1x128, .f32⟩
  | .hbm, ⟨12, _⟩ => ⟨S524288x128, .f32⟩
  | .hbm, ⟨13, _⟩ => ⟨S524288x128, .f32⟩
  | .hbm, ⟨14, _⟩ => ⟨S128x128, .f32⟩
  | .hbm, ⟨15, _⟩ => ⟨S524288x128, .f32⟩
  | .hbm, ⟨16, _⟩ => ⟨S1x128, .f32⟩
  | .hbm, ⟨17, _⟩ => ⟨S524288x128, .f32⟩
  | .hbm, ⟨18, _⟩ => ⟨S524288x128, .f32⟩
  | .hbm, ⟨19, _⟩ => ⟨S128x128, .f32⟩
  | .hbm, ⟨20, _⟩ => ⟨S524288x128, .f32⟩
  | .hbm, ⟨21, _⟩ => ⟨S1x128, .f32⟩
  | .hbm, ⟨22, _⟩ => ⟨S524288x128, .f32⟩
  | .hbm, ⟨23, _⟩ => ⟨S524288x128, .f32⟩
  | .hbm, ⟨24, _⟩ => ⟨S524288x8x16, .f32⟩
  | .hbm, ⟨25, _⟩ => ⟨S524288x16x8, .f32⟩
  | .hbm, ⟨26, _⟩ => ⟨S524288x8x16, .f32⟩
  | .hbm, ⟨27, _⟩ => ⟨S524288x16x8, .f32⟩
  | .hbm, ⟨28, _⟩ => ⟨S524288x8x16, .f32⟩
  | .hbm, ⟨29, _⟩ => ⟨S524288x16x8, .f32⟩
  | .hbm, ⟨30, _⟩ => ⟨S524288x16x16, .f32⟩
  | .hbm, ⟨31, _⟩ => ⟨S_, .f32⟩
  | .hbm, ⟨32, _⟩ => ⟨S_, .f32⟩
  | .hbm, ⟨33, _⟩ => ⟨S524288x16x16, .f32⟩
  | .hbm, ⟨34, _⟩ => ⟨S524288x16x16, .f32⟩
  | .hbm, ⟨35, _⟩ => ⟨S_, .f32⟩
  | .hbm, ⟨36, _⟩ => ⟨S524288x16, .f32⟩
  | .hbm, ⟨37, _⟩ => ⟨S_, .f32⟩
  | .hbm, ⟨38, _⟩ => ⟨S524288x16, .f32⟩
  | .hbm, ⟨39, _⟩ => ⟨S524288x16, .f32⟩
  | .hbm, ⟨40, _⟩ => ⟨S524288x16x1, .f32⟩
  | .hbm, ⟨41, _⟩ => ⟨S524288x16x16, .f32⟩
  | .hbm, ⟨42, _⟩ => ⟨S524288x16x16, .f32⟩
  | .hbm, ⟨43, _⟩ => ⟨S524288x16x16, .f32⟩
  | .hbm, ⟨44, _⟩ => ⟨S_, .f32⟩
  | .hbm, ⟨45, _⟩ => ⟨S524288x16, .f32⟩
  | .hbm, ⟨46, _⟩ => ⟨S524288x16x1, .f32⟩
  | .hbm, ⟨47, _⟩ => ⟨S524288x16x16, .f32⟩
  | .hbm, ⟨48, _⟩ => ⟨S524288x16x16, .f32⟩
  | .hbm, ⟨49, _⟩ => ⟨S524288x16x8, .f32⟩
  | .hbm, ⟨50, _⟩ => ⟨S524288x8x16, .f32⟩
  | .hbm, ⟨51, _⟩ => ⟨S524288x128, .f32⟩
  | .hbm, ⟨52, _⟩ => ⟨S128x128, .f32⟩
  | .hbm, ⟨53, _⟩ => ⟨S524288x128, .f32⟩
  | .hbm, ⟨54, _⟩ => ⟨S1x128, .f32⟩
  | .hbm, ⟨55, _⟩ => ⟨S524288x128, .f32⟩
  | .hbm, ⟨56, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  shapeCasts_S524288x128_S524288x8x16 : S524288x128.ShapeCasts S524288x8x16
  transposes_S524288x8x16_S524288x16x8_0_2_1 : S524288x8x16.Transposes [0, 2, 1] S524288x16x8
  bcast_S_S524288x16x16 : S_.BroadcastsInDim S524288x16x16 (![] : Fin 0 → Fin S524288x16x16.rank)
  reducesTo_S524288x16x16_S524288x16_d2 : S524288x16x16.ReducesTo [2] S524288x16
  h_S_ : 0 < S_.numel
  bcast_S_S524288x16 : S_.BroadcastsInDim S524288x16 (![] : Fin 0 → Fin S524288x16.rank)
  bcast_S524288x16_S524288x16x1_0_1 : S524288x16.BroadcastsInDim S524288x16x1 (![0, 1] : Fin 2 → Fin S524288x16x1.rank)
  bcast_S524288x16x1_S524288x16x16_0_1_2 : S524288x16x1.BroadcastsInDim S524288x16x16 (![0, 1, 2] : Fin 3 → Fin S524288x16x16.rank)
  transposes_S524288x16x8_S524288x8x16_0_2_1 : S524288x16x8.Transposes [0, 2, 1] S524288x8x16
  shapeCasts_S524288x8x16_S524288x128 : S524288x8x16.ShapeCasts S524288x128
  dot_S524288x128_S128x128_S524288x128_1_0_0_1_n_n_wf : DotDims.WF S524288x128 S128x128 S524288x128 [1] [0] [0] [1] [] []
  dot_S524288x16x8_S524288x16x8_S524288x16x16_2_2_1_1_0_0_wf : DotDims.WF S524288x16x8 S524288x16x8 S524288x16x16 [2] [2] [1] [1] [0] [0]
  dot_S524288x16x16_S524288x16x8_S524288x16x8_2_1_1_2_0_0_wf : DotDims.WF S524288x16x16 S524288x16x8 S524288x16x8 [2] [1] [1] [2] [0] [0]

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def dot_S524288x16x8_S524288x16x8_S524288x16x16_2_2_1_1_0_0 : DotDims S524288x16x8 S524288x16x8 S524288x16x16 where
  lhsContracting := [2]
  rhsContracting := [2]
  lhsNonContracting := [1]
  rhsNonContracting := [1]
  lhsBatch := [0]
  rhsBatch := [0]
  wf := dot_S524288x16x8_S524288x16x8_S524288x16x16_2_2_1_1_0_0_wf
def dot_S524288x16x16_S524288x16x8_S524288x16x8_2_1_1_2_0_0 : DotDims S524288x16x16 S524288x16x8 S524288x16x8 where
  lhsContracting := [2]
  rhsContracting := [1]
  lhsNonContracting := [1]
  rhsNonContracting := [2]
  lhsBatch := [0]
  rhsBatch := [0]
  wf := dot_S524288x16x16_S524288x16x8_S524288x16x8_2_1_1_2_0_0_wf

class Facts : Prop extends Facts₀ where

variable [Facts]
-- ==== Proof.RowAttention.lean ====
/-
  What both programs compute, for ONE row of the input, as a function of that row and of the eight parameter
  arrays.  Nothing in the computation mixes two rows, so the whole result is this function applied row by row.

  A row `x` of 128 features is sent through three affine maps, `q = x·Wqᵀ + bq`, `k = x·Wkᵀ + bk`, `v = x·Wvᵀ + bv`.
  Each 128-vector is read as 8 heads of 16 coordinates, feature `h·16 + d` being coordinate `d` of head `h`.
  The attention runs over the COORDINATES, contracting the heads: the score of coordinates `d` and `e` is
  `(Σ_h q[h,d]·k[h,e]) / 4`; each row `d` of the 16×16 score matrix is normalised by a softmax (subtract the
  row's maximum, exponentiate, divide by the sum); the weights mix the values, `m[d,h] = Σ_e w[d,e]·v[h,e]`; the
  mixed values are laid back as feature `h·16 + d` and sent through the output map `·Woᵀ + bo`.

  The maximum is taken from the word of minus infinity and then once more against it, and the sum of
  exponentials starts from zero, because that is how both programs spell a softmax; the words are kept as
  words, since the same word on both sides is never evaluated.
-/
import Idealize.ShloMosaic.PureOps.Ideal
import Idealize.ShloMosaic.Lib.ValueIdx

noncomputable section

namespace Cert.Attn

open Idealize.ShloMosaic Idealize.ShloMosaic.ValueIdx

/-- The word of minus infinity, from which a row's maximum is folded. -/
def negInf : EReal := Ideal.ofBits .f32 0xFF800000#32

/-- The word of one quarter, `1/√16`, by which a score is scaled. -/
def quarter : EReal := Ideal.ofBits .f32 0x3E800000#32

/-- Feature `h·16 + d`: coordinate `d` of head `h`. -/
def feat (h : Fin 8) (d : Fin 16) : Fin 128 := ⟨h.val * 16 + d.val, by have := h.isLt; have := d.isLt; omega⟩

/-- The head a feature belongs to. -/
def headOf (j : Fin 128) : Fin 8 := ⟨j.val / 16, by have := j.isLt; omega⟩

/-- The coordinate of a feature inside its head. -/
def coordOf (j : Fin 128) : Fin 16 := ⟨j.val % 16, Nat.mod_lt _ (by norm_num)⟩

theorem feat_headOf_coordOf (j : Fin 128) : feat (headOf j) (coordOf j) = j :=
  Fin.ext (by show j.val / 16 * 16 + j.val % 16 = j.val; omega)

/-- An affine map `x ↦ x·Wᵀ + b`, at output feature `c`: `W c k` is the weight from input `k` to output `c`. -/
def lin (x : Fin 128 → EReal) (W : Fin 128 → Fin 128 → EReal) (b : Fin 128 → EReal) (c : Fin 128) : EReal :=
  (∑ k : Fin 128, x k * W c k) + b c

/-- The scaled score of coordinates `d` and `e`: the heads contracted, times one quarter. -/
def score (q k : Fin 128 → EReal) (d e : Fin 16) : EReal :=
  (∑ h : Fin 8, q (feat h d) * k (feat h e)) * quarter

/-- The maximum of a row of scores, folded from minus infinity and taken against it once more. -/
def rowMax (s : Fin 16 → EReal) : EReal := max negInf (Finset.univ.fold max negInf s)

/-- A score's exponential after the row's maximum is subtracted. -/
def expo (s : Fin 16 → EReal) (e : Fin 16) : EReal := Ideal.exp (s e - rowMax s)

/-- The softmax weight: the exponential over the row's sum of exponentials. -/
def weight (s : Fin 16 → EReal) (e : Fin 16) : EReal := Ideal.div (expo s e) (∑ e' : Fin 16, expo s e')

/-- The values mixed by the weights of score row `d`, for head `h`. -/
def mixed (q k v : Fin 128 → EReal) (d : Fin 16) (h : Fin 8) : EReal :=
  ∑ e : Fin 16, weight (score q k d) e * v (feat h e)

/-- The mixed values laid back as 128 features: feature `h·16 + d` is `mixed d h`. -/
def attended (q k v : Fin 128 → EReal) (j : Fin 128) : EReal := mixed q k v (coordOf j) (headOf j)

/-- The result row, at output feature `c`. -/
def outRow (x : Fin 128 → EReal) (Wq : Fin 128 → Fin 128 → EReal) (bq : Fin 128 → EReal)
    (Wk : Fin 128 → Fin 128 → EReal) (bk : Fin 128 → EReal) (Wv : Fin 128 → Fin 128 → EReal) (bv : Fin 128 → EReal)
    (Wo : Fin 128 → Fin 128 → EReal) (bo : Fin 128 → EReal) (c : Fin 128) : EReal :=
  lin (attended (lin x Wq bq) (lin x Wk bk) (lin x Wv bv)) Wo bo c

/-- The whole result array: row `i 0` of the input sent through `outRow`, read at feature `i 1`.  A weight
    array `W` of shape [128, 128] holds the weight from input `k` to output `c` at `(c, k)`. -/
def result (x : (⟨2, ![524288, 128]⟩ : Shape).Idx → EReal)
    (Wq : (⟨2, ![128, 128]⟩ : Shape).Idx → EReal) (bq : (⟨1, ![128]⟩ : Shape).Idx → EReal)
    (Wk : (⟨2, ![128, 128]⟩ : Shape).Idx → EReal) (bk : (⟨1, ![128]⟩ : Shape).Idx → EReal)
    (Wv : (⟨2, ![128, 128]⟩ : Shape).Idx → EReal) (bv : (⟨1, ![128]⟩ : Shape).Idx → EReal)
    (Wo : (⟨2, ![128, 128]⟩ : Shape).Idx → EReal) (bo : (⟨1, ![128]⟩ : Shape).Idx → EReal) :
    (⟨2, ![524288, 128]⟩ : Shape).Idx → EReal := fun i =>
  outRow (fun k => x (ix2 (i 0) k))
    (fun c k => Wq (ix2 c k)) (fun c => bq (ix1 c)) (fun c k => Wk (ix2 c k)) (fun c => bk (ix1 c))
    (fun c k => Wv (ix2 c k)) (fun c => bv (ix1 c)) (fun c k => Wo (ix2 c k)) (fun c => bo (ix1 c)) (i 1)

end Cert.Attn

end
-- ==== Proof.LibTrailingSplit.lean ====
/-
  Three general facts about blocks of rows, for any sizes.

  * A trailing axis of extent `n = a·b` read as two axes `[a, b]` (a shape cast `[m, n] → [m, a, b]`), and the
    two axes merged back (`[m, a, b] → [m, n]`): a shape cast keeps an element's row-major position, so entry
    `(r, p, q)` of the split array is entry `(r, p·b + q)` of the flat one, and conversely.
  * A reduction over the LAST axis of a rank-3 block, kept as a rank-2 array: at `(r, d)` the `<add>` one is the
    sum over `e` of the source at `(r, d, e)`, the `<maximumf>` one the fold of `max` from the accumulator's
    value over the same entries.
  * A matrix product into the zero accumulator whose dimension numbers contract ONE axis of extent `K`, read at
    an output index: the sum over `k : Fin K` of the left operand at `li k` times the right at `ri k`, for any
    index functions `li`, `ri` that agree with the dimension record's index maps (whatever the batch and free
    axes are: the caller says where the product reads).
-/
import Idealize.ShloMosaic.Lib.Pipeline.Value
import Idealize.ShloMosaic.Lib.ValueIdx
import Idealize.ShloMosaic.PureOps.Ideal.Laws

noncomputable section

namespace Cert.Lib.TrailingSplit

open Idealize.ShloMosaic Idealize.ShloMosaic.ValueIdx

variable {α : Type}

/-- An `[m, n]` array with `n = a·b` cast to `[m, a, b]` reads, at `(r, p, q)`, the operand at `(r, p·b + q)`. -/
theorem shapeCast_mn_mab_apply {m n a b : ℕ} (hn : n = a * b) (x : (⟨2, ![m, n]⟩ : Shape).Idx → α)
    (h : (⟨2, ![m, n]⟩ : Shape).ShapeCasts ⟨3, ![m, a, b]⟩) (r : Fin m) (p : Fin a) (q : Fin b) (k : Fin n)
    (hk : k.val = p.val * b + q.val) :
    shapeCast ⟨3, ![m, a, b]⟩ x h (ix3 r p q) = x (ix2 r k) :=
  shapeCast_apply x h _ _ (by
    rw [Shape.rowMajor_val_two, Shape.rowMajor_val_three]
    show r.val * n + k.val = (r.val * a + p.val) * b + q.val
    rw [hk, hn, Nat.add_mul, Nat.mul_assoc, Nat.add_assoc])

/-- An `[m, a, b]` array cast to `[m, n]` with `n = a·b` reads, at `(r, p·b + q)`, the operand at `(r, p, q)`. -/
theorem shapeCast_mab_mn_apply {m n a b : ℕ} (hn : n = a * b) (x : (⟨3, ![m, a, b]⟩ : Shape).Idx → α)
    (h : (⟨3, ![m, a, b]⟩ : Shape).ShapeCasts ⟨2, ![m, n]⟩) (r : Fin m) (p : Fin a) (q : Fin b) (k : Fin n)
    (hk : k.val = p.val * b + q.val) :
    shapeCast ⟨2, ![m, n]⟩ x h (ix2 r k) = x (ix3 r p q) :=
  shapeCast_apply x h _ _ (by
    rw [Shape.rowMajor_val_two, Shape.rowMajor_val_three]
    show (r.val * a + p.val) * b + q.val = r.val * n + k.val
    rw [hk, hn, Nat.add_mul, Nat.mul_assoc, Nat.add_assoc])

/-- The index a reduction over the last axis of `[m, a, b]` reads: `(r, d)` with `e` inserted is `(r, d, e)`. -/
theorem lift_last {m a b : ℕ} (h : (⟨3, ![m, a, b]⟩ : Shape).Reduces [2] ⟨2, ![m, a]⟩) (r : Fin m) (d : Fin a) (e : Fin b) :
    h.lift (ix2 r d) e = ix3 r d e :=
  funext fun c => Fin.ext (by
    match c with
    | ⟨0, _⟩ => rfl
    | ⟨1, _⟩ => rfl
    | ⟨2, _⟩ => rfl)

/-- A `<add>` reduction over the last axis of a rank-3 block, at `(r, d)`: the sum over `e` of the source at
    `(r, d, e)`. -/
theorem rowSum_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (r : Fin m) (d : Fin a) :
    multiReduction .add [2] ⟨2, ![m, a]⟩ src acc h hφ hacc (ix2 r d) = ∑ e : Fin b, src (ix3 r d e) := by
  rw [Ideal.multiReduction_add_single]
  exact Finset.sum_congr rfl fun e _ => congrArg src (lift_last h r d e)

/-- A `<maximumf>` reduction over the last axis of a rank-3 block, at `(r, d)`: the fold of `max`, from the
    accumulator's value, over the source's entries `(r, d, e)`. -/
theorem rowMax_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (r : Fin m) (d : Fin a) :
    multiReduction .maximumf [2] ⟨2, ![m, a]⟩ src acc h hφ hacc (ix2 r d)
      = (Finset.univ : Finset (Fin b)).fold max (Ideal.ofBits φ acc) (fun e => src (ix3 r d e)) := by
  rw [Ideal.multiReduction_maximumf_single]
  exact congrArg (Finset.fold max (Ideal.ofBits φ acc) · (Finset.univ : Finset (Fin b)))
    (funext fun e => congrArg src (lift_last h r d e))

/-- A matrix product into the zero accumulator, one axis of extent `K` contracted, read at the output index `j`:
    the sum over `k : Fin K` of the operands' products at the indices the dimension record names. -/
theorem matmul_zero_sum {sl sr so : Shape} {φ₁ φ₂ : FTy} (D : DotDims sl sr so) (K : ℕ)
    (hr : D.contr.rank = 1) (hs : D.contr.size ⟨0, by omega⟩ = K) (prec : Option ContractPrecision)
    (lhs : FVec Ideal sl φ₁) (rhs : FVec Ideal sr φ₂) (j : so.Idx) (li : Fin K → sl.Idx) (ri : Fin K → sr.Idx)
    (hl : ∀ (k : Fin K) (q : D.contr.Idx), (q ⟨0, by omega⟩).val = k.val → D.lhsIdx j q = li k)
    (hri : ∀ (k : Fin K) (q : D.contr.Idx), (q ⟨0, by omega⟩).val = k.val → D.rhsIdx j q = ri k) :
    FloatOps.matmul D prec lhs rhs (constant (F := Ideal) so .f32 0x00000000#32) j = ∑ k : Fin K, lhs (li k) * rhs (ri k) := by
  rw [Ideal.matmul_constant_zero_apply, ← Equiv.sum_comp (contrEquiv1 D K hr hs).symm]
  refine Finset.sum_congr rfl fun k _ => ?_
  have hk := contrEquiv1_symm_val D K hr hs k
  rw [hl k _ hk, hri k _ hk]

end Cert.Lib.TrailingSplit

end
-- ==== Proof.LibTrailingUnit.lean ====
/-
  A trailing unit axis, read at an index given by coordinates.

  A shape cast keeps the row-major position of an element, and a broadcast reads coordinate 0 on each unit axis of its
  operand. So an `[a, b]` array cast to `[a, b, 1]` reads, at `(i, j, u)`, the operand at `(i, j)` (both sit at position
  `i * b + j`, the unit coordinate being 0), and an `[a, b, 1]` array stretched to `[a, b, c]` reads, at `(i, j, k)`, the
  operand at `(i, j, 0)`: each entry repeated along the new last axis. (What `x[:, :, None]` against `x[:, None, :]` needs
  of an outer comparison of a row with itself.)
-/
import Idealize.ShloMosaic.Lib.Pipeline.Value
import Idealize.ShloMosaic.Lib.ValueIdx

namespace Cert.Lib.TrailingUnit

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Lib.TrailingUnit
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.KernelStages.lean ====
/-
  The tiled program's body, for one block of 2048 rows, regrouped into the stages of the computation and each
  stage read at an entry.

  The body computes, from the block `X` of rows and the staged parameter blocks: three affine maps of the rows
  (`affine`: a product with a 128×128 block into the zero accumulator plus a bias row repeated down the block);
  each result read as 8 heads of 16 coordinates and turned so that the coordinate comes first (`heads`); the
  scores, a product batched over the rows that contracts the heads, times the word of one quarter (`scores`);
  a softmax along the last axis (`rowMaxes`, `spread`, `exps`, `weights`: the row maximum and the row sum are
  kept as a trailing unit axis and repeated along it); the weights applied to the values, turned back and
  flattened to 128 features (`mix`); and the output affine map.  A change of float format is the identity at
  the ideal values, so the narrowing of the operands of the four 128-wide products leaves no trace.

  Every entry `(p, ·)` of every stage depends on row `p` of the block only.
-/
import proofs.«178139_j37237366456674_2_alg».proof.Proof.Gen.KernelIdeal.Skeleton
import proofs.«178139_j37237366456674_2_alg».proof.Proof.RowAttention
import proofs.«178139_j37237366456674_2_alg».proof.Proof.LibTrailingSplit
import proofs.«178139_j37237366456674_2_alg».proof.Proof.LibTrailingUnit
import proofs.«178139_j37237366456674_2_alg».proof.Proof.LibSplitContraction
import Idealize.ShloMosaic.Lib.ValueLayout
import Idealize.ShloMosaic.Lib.ValueIdx
import Idealize.ShloMosaic.Lib.Pipeline.Value
import Idealize.ShloMosaic.PureOps.Ideal.Laws

noncomputable section

namespace Cert.Attn.Kernel

open Cert.KernelIdeal Cert.KernelIdeal.Gen Idealize.ShloMosaic Idealize.ShloMosaic.ValueIdx

/-! ## The stages, as the body spells them -/

/-- `X·W + b`: the rows times a 128×128 block (both narrowed, which is the identity here) into zero, plus the
    one-row bias block repeated down the rows. -/
def affine (X : FVec Ideal S2048x128 .f32) (W : FVec Ideal S128x128 .f32) (B : FVec Ideal S1x128 .f32) : FVec Ideal S2048x128 .f32 :=
  addf (matmul dot_S2048x128_S128x128_S2048x128_1_0_0_1_n_n none (truncf .bf16 X bitsLt_bf16_f32)
      (truncf .bf16 (shapeCast S128x128 W shapeCasts_S128x128_S128x128) bitsLt_bf16_f32) (constant S2048x128 .f32 0x00000000#32))
    (broadcastTo S2048x128 (shapeCast S1x128 B shapeCasts_S1x128_S1x128) broadcasts_S1x128_S2048x128)

/-- 128 features read as 8 heads of 16 coordinates, coordinate first. -/
def heads (Y : FVec Ideal S2048x128 .f32) : FVec Ideal S2048x16x8 .f32 :=
  transpose S2048x16x8 [0, 2, 1] (shapeCast S2048x8x16 Y shapeCasts_S2048x128_S2048x8x16) transposes_S2048x8x16_p0_2_1_S2048x16x8

/-- The scaled scores: the heads contracted, row by row, times the word of one quarter. -/
def scores (Q K : FVec Ideal S2048x128 .f32) : FVec Ideal S2048x16x16 .f32 :=
  mulf (matmul dot_S2048x16x8_S2048x16x8_S2048x16x16_2_2_1_1_0_0 none (heads Q) (heads K) (constant S2048x16x16 .f32 0x00000000#32))
    (broadcast S2048x16x16 (Scalar.ofBits .f32 0x3E800000#32))

/-- Each score row's maximum, from minus infinity and against it once more. -/
def rowMaxes (S : FVec Ideal S2048x16x16 .f32) : FVec Ideal S2048x16 .f32 :=
  maximumf (broadcast S2048x16 (Scalar.ofBits .f32 0xFF800000#32))
    (multiReduction .maximumf [2] S2048x16 S 0xFF800000#32 reduces_S2048x16x16_S2048x16 (.inl rfl) rfl)

/-- A per-row quantity repeated along the score row. -/
def spread (M : FVec Ideal S2048x16 .f32) : FVec Ideal S2048x16x16 .f32 :=
  broadcastTo S2048x16x16 (shapeCast S2048x16x1 M shapeCasts_S2048x16_S2048x16x1) broadcasts_S2048x16x1_S2048x16x16

/-- The exponentials of the scores less their row's maximum. -/
def exps (S : FVec Ideal S2048x16x16 .f32) : FVec Ideal S2048x16x16 .f32 :=
  exp (subf S (spread (rowMaxes S)))

/-- The softmax weights: each exponential over its row's sum. -/
def weights (S : FVec Ideal S2048x16x16 .f32) : FVec Ideal S2048x16x16 .f32 :=
  divf (exps S) (spread (multiReduction .add [2] S2048x16 (exps S) 0x00000000#32 reduces_S2048x16x16_S2048x16 (.inl rfl) rfl))

/-- The weights applied to the values, turned head first and flattened to 128 features. -/
def mix (A : FVec Ideal S2048x16x16 .f32) (V : FVec Ideal S2048x16x8 .f32) : FVec Ideal S2048x128 .f32 :=
  shapeCast S2048x128
    (transpose S2048x8x16 [0, 2, 1] (matmul dot_S2048x16x16_S2048x16x8_S2048x16x8_2_1_1_2_0_0 none A V (constant S2048x16x8 .f32 0x00000000#32))
      transposes_S2048x16x8_p0_2_1_S2048x8x16)
    shapeCasts_S2048x8x16_S2048x128

/-! ## The body's payloads are these stages -/

theorem pay5_eq (X : Vec Ideal S2048x128 .f32) (W1 W3 : Vec Ideal S128x128 .f32) (B2 B4 : Vec Ideal S1x128 .f32) :
    k0_pay5 (F := Ideal) X W1 W3 B2 B4 = scores (affine X W1 B2) (affine X W3 B4) := rfl

theorem pay4_eq (X : Vec Ideal S2048x128 .f32) (W5 : Vec Ideal S128x128 .f32) (B6 : Vec Ideal S1x128 .f32) :
    k0_pay4 (F := Ideal) X W5 B6 = heads (affine X W5 B6) := rfl

theorem pay1_eq (W7 : Vec Ideal S128x128 .f32) (V : FVec Ideal S2048x16x8 .f32) (S : FVec Ideal S2048x16x16 .f32) (B8 : Vec Ideal S1x128 .f32) :
    k0_pay1 (F := Ideal) (k0_pay3 W7) V S B8 = affine (mix (weights S) V) W7 B8 := rfl

/-! ## The dimension records' index maps, by coordinates -/

theorem plain_l0 (j : S2048x128.Idx) (q : dot_S2048x128_S128x128_S2048x128_1_0_0_1_n_n.contr.Idx) : (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem plain_l1 (j : S2048x128.Idx) (q : dot_S2048x128_S128x128_S2048x128_1_0_0_1_n_n.contr.Idx) : (dot_S2048x128_S128x128_S2048x128_1_0_0_1_n_n.lhsIdx j q 1).val = (q ⟨0, by decide⟩).val :=
  dot_S2048x128_S128x128_S2048x128_1_0_0_1_n_n.lhsIdx_val_of_single rfl j q
theorem plain_r0 (j : S2048x128.Idx) (q : dot_S2048x128_S128x128_S2048x128_1_0_0_1_n_n.contr.Idx) : (dot_S2048x128_S128x128_S2048x128_1_0_0_1_n_n.rhsIdx j q 0).val = (q ⟨0, by decide⟩).val :=
  dot_S2048x128_S128x128_S2048x128_1_0_0_1_n_n.rhsIdx_val_of_single rfl j q
theorem plain_r1 (j : S2048x128.Idx) (q : dot_S2048x128_S128x128_S2048x128_1_0_0_1_n_n.contr.Idx) : (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

theorem qk_l0 (j : S2048x16x16.Idx) (q : dot_S2048x16x8_S2048x16x8_S2048x16x16_2_2_1_1_0_0.contr.Idx) : (dot_S2048x16x8_S2048x16x8_S2048x16x16_2_2_1_1_0_0.lhsIdx j q 0).val = (j 0).val := by
  unfold DotDims.lhsIdx
  rw [dif_pos (show (0 : Fin S2048x16x8.rank) ∈ dot_S2048x16x8_S2048x16x8_S2048x16x16_2_2_1_1_0_0.lhsBatch by decide)]
  rfl
theorem qk_l1 (j : S2048x16x16.Idx) (q : dot_S2048x16x8_S2048x16x8_S2048x16x16_2_2_1_1_0_0.contr.Idx) : (dot_S2048x16x8_S2048x16x8_S2048x16x16_2_2_1_1_0_0.lhsIdx j q 1).val = (j 1).val := by
  unfold DotDims.lhsIdx
  rw [dif_neg (show ¬(1 : Fin S2048x16x8.rank) ∈ dot_S2048x16x8_S2048x16x8_S2048x16x16_2_2_1_1_0_0.lhsBatch by decide), dif_pos (show (1 : Fin S2048x16x8.rank) ∈ dot_S2048x16x8_S2048x16x8_S2048x16x16_2_2_1_1_0_0.lhsNonContracting by decide)]
  rfl
theorem qk_l2 (j : S2048x16x16.Idx) (q : dot_S2048x16x8_S2048x16x8_S2048x16x16_2_2_1_1_0_0.contr.Idx) : (dot_S2048x16x8_S2048x16x8_S2048x16x16_2_2_1_1_0_0.lhsIdx j q 2).val = (q ⟨0, by decide⟩).val :=
  dot_S2048x16x8_S2048x16x8_S2048x16x16_2_2_1_1_0_0.lhsIdx_val_of_single rfl j q
theorem qk_r0 (j : S2048x16x16.Idx) (q : dot_S2048x16x8_S2048x16x8_S2048x16x16_2_2_1_1_0_0.contr.Idx) : (dot_S2048x16x8_S2048x16x8_S2048x16x16_2_2_1_1_0_0.rhsIdx j q 0).val = (j 0).val := by
  unfold DotDims.rhsIdx
  rw [dif_pos (show (0 : Fin S2048x16x8.rank) ∈ dot_S2048x16x8_S2048x16x8_S2048x16x16_2_2_1_1_0_0.rhsBatch by decide)]
  rfl
theorem qk_r1 (j : S2048x16x16.Idx) (q : dot_S2048x16x8_S2048x16x8_S2048x16x16_2_2_1_1_0_0.contr.Idx) : (dot_S2048x16x8_S2048x16x8_S2048x16x16_2_2_1_1_0_0.rhsIdx j q 1).val = (j 2).val := by
  unfold DotDims.rhsIdx
  rw [dif_neg (show ¬(1 : Fin S2048x16x8.rank) ∈ dot_S2048x16x8_S2048x16x8_S2048x16x16_2_2_1_1_0_0.rhsBatch by decide), dif_pos (show (1 : Fin S2048x16x8.rank) ∈ dot_S2048x16x8_S2048x16x8_S2048x16x16_2_2_1_1_0_0.rhsNonContracting by decide)]
  rfl
theorem qk_r2 (j : S2048x16x16.Idx) (q : dot_S2048x16x8_S2048x16x8_S2048x16x16_2_2_1_1_0_0.contr.Idx) : (dot_S2048x16x8_S2048x16x8_S2048x16x16_2_2_1_1_0_0.rhsIdx j q 2).val = (q ⟨0, by decide⟩).val :=
  dot_S2048x16x8_S2048x16x8_S2048x16x16_2_2_1_1_0_0.rhsIdx_val_of_single rfl j q

/-- The scores' product reads the left operand at `(p, d, h)` and the right at `(p, e, h)`. -/
theorem qk_l (p : Fin 2048) (d e : Fin 16) (h : Fin 8) (q : dot_S2048x16x8_S2048x16x8_S2048x16x16_2_2_1_1_0_0.contr.Idx) (hq : (q ⟨0, by decide⟩).val = h.val) :
    dot_S2048x16x8_S2048x16x8_S2048x16x16_2_2_1_1_0_0.lhsIdx (ix3 p d e) q = ix3 p d h := funext fun a => Fin.ext (by
  match a with
  | ⟨0, _⟩ => exact qk_l0 _ _
  | ⟨1, _⟩ => exact qk_l1 _ _
  | ⟨2, _⟩ => exact (qk_l2 _ _).trans hq)

theorem qk_r (p : Fin 2048) (d e : Fin 16) (h : Fin 8) (q : dot_S2048x16x8_S2048x16x8_S2048x16x16_2_2_1_1_0_0.contr.Idx) (hq : (q ⟨0, by decide⟩).val = h.val) :
    dot_S2048x16x8_S2048x16x8_S2048x16x16_2_2_1_1_0_0.rhsIdx (ix3 p d e) q = ix3 p e h := funext fun a => Fin.ext (by
  match a with
  | ⟨0, _⟩ => exact qk_r0 _ _
  | ⟨1, _⟩ => exact qk_r1 _ _
  | ⟨2, _⟩ => exact (qk_r2 _ _).trans hq)

theorem av_l0 (j : S2048x16x8.Idx) (q : dot_S2048x16x16_S2048x16x8_S2048x16x8_2_1_1_2_0_0.contr.Idx) : (dot_S2048x16x16_S2048x16x8_S2048x16x8_2_1_1_2_0_0.lhsIdx j q 0).val = (j 0).val := by
  unfold DotDims.lhsIdx
  rw [dif_pos (show (0 : Fin S2048x16x16.rank) ∈ dot_S2048x16x16_S2048x16x8_S2048x16x8_2_1_1_2_0_0.lhsBatch by decide)]
  rfl
theorem av_l1 (j : S2048x16x8.Idx) (q : dot_S2048x16x16_S2048x16x8_S2048x16x8_2_1_1_2_0_0.contr.Idx) : (dot_S2048x16x16_S2048x16x8_S2048x16x8_2_1_1_2_0_0.lhsIdx j q 1).val = (j 1).val := by
  unfold DotDims.lhsIdx
  rw [dif_neg (show ¬(1 : Fin S2048x16x16.rank) ∈ dot_S2048x16x16_S2048x16x8_S2048x16x8_2_1_1_2_0_0.lhsBatch by decide), dif_pos (show (1 : Fin S2048x16x16.rank) ∈ dot_S2048x16x16_S2048x16x8_S2048x16x8_2_1_1_2_0_0.lhsNonContracting by decide)]
  rfl
theorem av_l2 (j : S2048x16x8.Idx) (q : dot_S2048x16x16_S2048x16x8_S2048x16x8_2_1_1_2_0_0.contr.Idx) : (dot_S2048x16x16_S2048x16x8_S2048x16x8_2_1_1_2_0_0.lhsIdx j q 2).val = (q ⟨0, by decide⟩).val :=
  dot_S2048x16x16_S2048x16x8_S2048x16x8_2_1_1_2_0_0.lhsIdx_val_of_single rfl j q
theorem av_r0 (j : S2048x16x8.Idx) (q : dot_S2048x16x16_S2048x16x8_S2048x16x8_2_1_1_2_0_0.contr.Idx) : (dot_S2048x16x16_S2048x16x8_S2048x16x8_2_1_1_2_0_0.rhsIdx j q 0).val = (j 0).val := by
  unfold DotDims.rhsIdx
  rw [dif_pos (show (0 : Fin S2048x16x8.rank) ∈ dot_S2048x16x16_S2048x16x8_S2048x16x8_2_1_1_2_0_0.rhsBatch by decide)]
  rfl
theorem av_r1 (j : S2048x16x8.Idx) (q : dot_S2048x16x16_S2048x16x8_S2048x16x8_2_1_1_2_0_0.contr.Idx) : (dot_S2048x16x16_S2048x16x8_S2048x16x8_2_1_1_2_0_0.rhsIdx j q 1).val = (q ⟨0, by decide⟩).val :=
  dot_S2048x16x16_S2048x16x8_S2048x16x8_2_1_1_2_0_0.rhsIdx_val_of_single rfl j q
theorem av_r2 (j : S2048x16x8.Idx) (q : dot_S2048x16x16_S2048x16x8_S2048x16x8_2_1_1_2_0_0.contr.Idx) : (dot_S2048x16x16_S2048x16x8_S2048x16x8_2_1_1_2_0_0.rhsIdx j q 2).val = (j 2).val := by
  unfold DotDims.rhsIdx
  rw [dif_neg (show ¬(2 : Fin S2048x16x8.rank) ∈ dot_S2048x16x16_S2048x16x8_S2048x16x8_2_1_1_2_0_0.rhsBatch by decide), dif_pos (show (2 : Fin S2048x16x8.rank) ∈ dot_S2048x16x16_S2048x16x8_S2048x16x8_2_1_1_2_0_0.rhsNonContracting by decide)]
  rfl

/-- The mixing product reads the weights at `(p, d, e)` and the values at `(p, e, h)`. -/
theorem av_l (p : Fin 2048) (d : Fin 16) (h : Fin 8) (e : Fin 16) (q : dot_S2048x16x16_S2048x16x8_S2048x16x8_2_1_1_2_0_0.contr.Idx) (hq : (q ⟨0, by decide⟩).val = e.val) :
    dot_S2048x16x16_S2048x16x8_S2048x16x8_2_1_1_2_0_0.lhsIdx (ix3 p d h) q = ix3 p d e := funext fun a => Fin.ext (by
  match a with
  | ⟨0, _⟩ => exact av_l0 _ _
  | ⟨1, _⟩ => exact av_l1 _ _
  | ⟨2, _⟩ => exact (av_l2 _ _).trans hq)

theorem av_r (p : Fin 2048) (d : Fin 16) (h : Fin 8) (e : Fin 16) (q : dot_S2048x16x16_S2048x16x8_S2048x16x8_2_1_1_2_0_0.contr.Idx) (hq : (q ⟨0, by decide⟩).val = e.val) :
    dot_S2048x16x16_S2048x16x8_S2048x16x8_2_1_1_2_0_0.rhsIdx (ix3 p d h) q = ix3 p e h := funext fun a => Fin.ext (by
  match a with
  | ⟨0, _⟩ => exact av_r0 _ _
  | ⟨1, _⟩ => exact (av_r1 _ _).trans hq
  | ⟨2, _⟩ => exact av_r2 _ _)

/-! ## Each stage at an entry -/

/-- Entry `(p, c)` of the affine map: row `p` of `X` against column `c` of the block, plus the bias at `c`.  The block
    holds the weight from input `k` to output `c` at `(k, c)`. -/
theorem affine_apply (X : FVec Ideal S2048x128 .f32) (W : FVec Ideal S128x128 .f32) (B : FVec Ideal S1x128 .f32)
    (p : Fin 2048) (c : Fin 128) :
    affine X W B (ix2 p c) = lin (fun k => X (ix2 p k)) (fun c k => W (ix2 k c)) (fun c => B (ix2 (0 : Fin 1) c)) c := by
  unfold affine lin
  rw [addf_apply]
  refine congrArg₂ (· + ·) ?_ ?_
  · refine (Cert.Lib.SplitContraction.matmul_zero_at dot_S2048x128_S128x128_S2048x128_1_0_0_1_n_n rfl rfl plain_l0 plain_l1 plain_r0 plain_r1 none _ _ p c).trans ?_
    refine Finset.sum_congr rfl fun k _ => ?_
    rw [truncf_apply, truncf_apply, shapeCast_self]
  · rw [broadcastTo_1b_ab_apply, shapeCast_self]

/-- Entry `(p, d, h)` of the head view is feature `h·16 + d` of row `p`. -/
theorem heads_apply (Y : FVec Ideal S2048x128 .f32) (p : Fin 2048) (d : Fin 16) (h : Fin 8) :
    heads Y (ix3 p d h) = Y (ix2 p (feat h d)) := by
  unfold heads
  rw [transpose_ix3_021_apply]
  exact Cert.Lib.TrailingSplit.shapeCast_mn_mab_apply (by norm_num) Y _ p h d (feat h d) rfl

/-- Entry `(p, d, e)` of the scores is the scaled score of coordinates `d` and `e` of row `p`. -/
theorem scores_apply (Q K : FVec Ideal S2048x128 .f32) (p : Fin 2048) (d e : Fin 16) :
    scores Q K (ix3 p d e) = score (fun j => Q (ix2 p j)) (fun j => K (ix2 p j)) d e := by
  unfold scores score quarter
  rw [mulf_apply, broadcast_apply]
  refine congrArg₂ (· * ·) ?_ rfl
  refine (Cert.Lib.TrailingSplit.matmul_zero_sum dot_S2048x16x8_S2048x16x8_S2048x16x16_2_2_1_1_0_0 8 rfl rfl none _ _ (ix3 p d e)
    (fun h => ix3 p d h) (fun h => ix3 p e h) (fun h q hq => qk_l p d e h q hq) (fun h q hq => qk_r p d e h q hq)).trans ?_
  refine Finset.sum_congr rfl fun h _ => ?_
  rw [heads_apply, heads_apply]

/-- Entry `(p, d)` of the row maxima is the maximum of score row `(p, d)`. -/
theorem rowMaxes_apply (S : FVec Ideal S2048x16x16 .f32) (p : Fin 2048) (d : Fin 16) :
    rowMaxes S (ix2 p d) = rowMax (fun e => S (ix3 p d e)) := by
  unfold rowMaxes rowMax negInf
  rw [maximumf_apply, broadcast_apply]
  refine congrArg₂ max rfl ?_
  exact Cert.Lib.TrailingSplit.rowMax_last_apply S _ _ _ _ p d

/-- A per-row quantity spread along the row reads, at `(p, d, e)`, its entry `(p, d)`. -/
theorem spread_apply (M : FVec Ideal S2048x16 .f32) (p : Fin 2048) (d e : Fin 16) :
    spread M (ix3 p d e) = M (ix2 p d) := by
  unfold spread
  rw [Cert.Lib.TrailingUnit.broadcastTo_ab1_abc_apply, Cert.Lib.TrailingUnit.shapeCast_ab_ab1_apply]

/-- Entry `(p, d, e)` of the exponentials. -/
theorem exps_apply (S : FVec Ideal S2048x16x16 .f32) (p : Fin 2048) (d e : Fin 16) :
    exps S (ix3 p d e) = expo (fun e' => S (ix3 p d e')) e := by
  unfold exps expo
  show Ideal.exp (subf S (spread (rowMaxes S)) (ix3 p d e)) = _
  rw [subf_apply, spread_apply, rowMaxes_apply]

/-- Entry `(p, d, e)` of the softmax weights. -/
theorem weights_apply (S : FVec Ideal S2048x16x16 .f32) (p : Fin 2048) (d e : Fin 16) :
    weights S (ix3 p d e) = weight (fun e' => S (ix3 p d e')) e := by
  unfold weights weight
  rw [divf_apply, spread_apply, exps_apply]
  refine congrArg (Ideal.div _) ((Cert.Lib.TrailingSplit.rowSum_last_apply (exps S) _ _ _ _ p d).trans ?_)
  exact Finset.sum_congr rfl fun e' _ => exps_apply S p d e'

/-- Entry `(p, j)` of the mixed values: feature `j` is coordinate `d` of head `h`, and holds the weights of row
    `(p, d)` applied to head `h` of the values. -/
theorem mix_apply (A : FVec Ideal S2048x16x16 .f32) (V : FVec Ideal S2048x16x8 .f32) (p : Fin 2048) (j : Fin 128) :
    mix A V (ix2 p j) = ∑ e : Fin 16, A (ix3 p (coordOf j) e) * V (ix3 p e (headOf j)) := by
  unfold mix
  rw [Cert.Lib.TrailingSplit.shapeCast_mab_mn_apply (by norm_num) _ _ p (headOf j) (coordOf j) j
      (by show j.val = j.val / 16 * 16 + j.val % 16; omega),
    transpose_ix3_021_apply]
  exact Cert.Lib.TrailingSplit.matmul_zero_sum dot_S2048x16x16_S2048x16x8_S2048x16x8_2_1_1_2_0_0 16 rfl rfl none _ _ (ix3 p (coordOf j) (headOf j))
    (fun e => ix3 p (coordOf j) e) (fun e => ix3 p e (headOf j))
    (fun e q hq => av_l p (coordOf j) (headOf j) e q hq) (fun e q hq => av_r p (coordOf j) (headOf j) e q hq)

end Cert.Attn.Kernel

end
-- ==== Proof.KernelRow.lean ====
/-
  The body's stored value, for one block, against the specification.

  Entry `(p, c)` of what the body stores is `outRow` of row `p` of the block of rows, read at feature `c`, with the
  staged parameter blocks as the maps' weights and biases: the stages of the body chained (each entry `(p, ·)` of
  every stage depends on row `p` alone).  A staged weight block holds the TRANSPOSED weight array — entry `(k, c)`
  is the weight from input `k` to output `c` — and a staged bias block is the bias vector as one row.

  So if the block of rows is rows `r₀ … r₀ + 2047` of the input array, and the parameter blocks are the transposed
  weights and the biases as rows, the stored block is rows `r₀ … r₀ + 2047` of the whole-array `result`.
-/
import proofs.«178139_j37237366456674_2_alg».proof.Proof.KernelStages

noncomputable section

namespace Cert.Attn.Kernel

open Cert.KernelIdeal Cert.KernelIdeal.Gen Idealize.ShloMosaic Idealize.ShloMosaic.ValueIdx

/-- What the body stores, at entry `(p, c)`: the specification's result row for row `p` of the block, at `c`. -/
theorem body_apply (X : Vec Ideal S2048x128 .f32) (W1 : Vec Ideal S128x128 .f32) (B2 : Vec Ideal S1x128 .f32)
    (W3 : Vec Ideal S128x128 .f32) (B4 : Vec Ideal S1x128 .f32) (W5 : Vec Ideal S128x128 .f32) (B6 : Vec Ideal S1x128 .f32)
    (W7 : Vec Ideal S128x128 .f32) (B8 : Vec Ideal S1x128 .f32) (p : Fin 2048) (c : Fin 128) :
    k0_pay1 (F := Ideal) (k0_pay3 W7) (k0_pay4 X W5 B6) (k0_pay5 X W1 W3 B2 B4) B8 (ix2 p c)
      = outRow (fun k => X (ix2 p k))
          (fun c k => W1 (ix2 k c)) (fun c => B2 (ix2 (0 : Fin 1) c)) (fun c k => W3 (ix2 k c)) (fun c => B4 (ix2 (0 : Fin 1) c))
          (fun c k => W5 (ix2 k c)) (fun c => B6 (ix2 (0 : Fin 1) c)) (fun c k => W7 (ix2 k c)) (fun c => B8 (ix2 (0 : Fin 1) c)) c := by
  rw [pay1_eq, pay4_eq, pay5_eq, affine_apply]
  unfold outRow
  refine congrArg (fun a => lin a _ _ c) (funext fun j => ?_)
  rw [mix_apply]
  unfold attended mixed
  refine Finset.sum_congr rfl fun e _ => ?_
  rw [weights_apply, heads_apply, affine_apply]
  refine congrArg₂ (· * ·) (congrArg (fun s => weight s e) (funext fun e' => ?_)) rfl
  rw [scores_apply]
  exact congrArg₂ (fun q k => score q k (coordOf j) e')
    (funext fun j' => affine_apply X W1 B2 p j') (funext fun j' => affine_apply X W3 B4 p j')

/-- A block of rows of the input, with the transposed weights and the biases as rows, stores the same rows of
    `result`. -/
theorem block_value (X : Vec Ideal S2048x128 .f32) (W1 : Vec Ideal S128x128 .f32) (B2 : Vec Ideal S1x128 .f32)
    (W3 : Vec Ideal S128x128 .f32) (B4 : Vec Ideal S1x128 .f32) (W5 : Vec Ideal S128x128 .f32) (B6 : Vec Ideal S1x128 .f32)
    (W7 : Vec Ideal S128x128 .f32) (B8 : Vec Ideal S1x128 .f32)
    (x : S524288x128.Idx → EReal) (Wq : S128x128.Idx → EReal) (bq : S128.Idx → EReal) (Wk : S128x128.Idx → EReal) (bk : S128.Idx → EReal)
    (Wv : S128x128.Idx → EReal) (bv : S128.Idx → EReal) (Wo : S128x128.Idx → EReal) (bo : S128.Idx → EReal) (r₀ : ℕ)
    (hX : ∀ (p : Fin 2048) (k : Fin 128) (n : Fin 524288), n.val = r₀ + p.val → X (ix2 p k) = x (ix2 n k))
    (h1 : ∀ k c : Fin 128, W1 (ix2 k c) = Wq (ix2 c k)) (h2 : ∀ c : Fin 128, B2 (ix2 (0 : Fin 1) c) = bq (ix1 c))
    (h3 : ∀ k c : Fin 128, W3 (ix2 k c) = Wk (ix2 c k)) (h4 : ∀ c : Fin 128, B4 (ix2 (0 : Fin 1) c) = bk (ix1 c))
    (h5 : ∀ k c : Fin 128, W5 (ix2 k c) = Wv (ix2 c k)) (h6 : ∀ c : Fin 128, B6 (ix2 (0 : Fin 1) c) = bv (ix1 c))
    (h7 : ∀ k c : Fin 128, W7 (ix2 k c) = Wo (ix2 c k)) (h8 : ∀ c : Fin 128, B8 (ix2 (0 : Fin 1) c) = bo (ix1 c))
    (y : S2048x128.Idx) (i : S524288x128.Idx) (hi0 : (i 0).val = r₀ + (y 0).val) (hi1 : (i 1).val = (y 1).val) :
    k0_pay1 (F := Ideal) (k0_pay3 W7) (k0_pay4 X W5 B6) (k0_pay5 X W1 W3 B2 B4) B8 y
      = result x Wq bq Wk bk Wv bv Wo bo i := by
  obtain ⟨p, c, rfl⟩ : ∃ (p : Fin 2048) (c : Fin 128), y = ix2 p c := ⟨y 0, y 1, eq_ix2 y⟩
  have hc : i 1 = c := Fin.ext hi1
  rw [body_apply]
  unfold result
  rw [hc]
  have eX : (fun k => X (ix2 p k)) = fun k => x (ix2 (i 0) k) := funext fun k => hX p k (i 0) hi0
  have e1 : (fun c k => W1 (ix2 k c)) = fun c k => Wq (ix2 c k) := funext fun c => funext fun k => h1 k c
  have e3 : (fun c k => W3 (ix2 k c)) = fun c k => Wk (ix2 c k) := funext fun c => funext fun k => h3 k c
  have e5 : (fun c k => W5 (ix2 k c)) = fun c k => Wv (ix2 c k) := funext fun c => funext fun k => h5 k c
  have e7 : (fun c k => W7 (ix2 k c)) = fun c k => Wo (ix2 c k) := funext fun c => funext fun k => h7 k c
  have e2 : (fun c => B2 (ix2 (0 : Fin 1) c)) = fun c => bq (ix1 c) := funext h2
  have e4 : (fun c => B4 (ix2 (0 : Fin 1) c)) = fun c => bk (ix1 c) := funext h4
  have e6 : (fun c => B6 (ix2 (0 : Fin 1) c)) = fun c => bv (ix1 c) := funext h6
  have e8 : (fun c => B8 (ix2 (0 : Fin 1) c)) = fun c => bo (ix1 c) := funext h8
  rw [eX, e1, e2, e3, e4, e5, e6, e7, e8]

end Cert.Attn.Kernel

end
-- ==== Proof.KernelValue.lean ====
/-
  From blocks to the whole array.

  The grid has 256 points.  At point `t` the window of the input rows is block `t` of the input array, rows
  `2048·t … 2048·t + 2047`; each parameter window is its whole array at every point, and those arrays are written
  before the region from the arguments: a weight matrix transposed, a bias vector as one row.  The output window at
  point `t` is block `t` of the result array.  By the body's value for one block, what point `t` writes back is rows
  `2048·t … 2048·t + 2047` of the specification's `result` of the argument arrays; the 256 blocks tile the 524288
  rows (row `r` is in block `r / 2048`), so after the run the result array is `result`.
-/
import proofs.«178139_j37237366456674_2_alg».proof.Proof.Gen.KernelIdeal.Value
import proofs.«178139_j37237366456674_2_alg».proof.Proof.KernelRow
import Idealize.ShloMosaic.Lib.Pipeline.Value
import Idealize.ShloMosaic.Lib.StableHlo.Run
import Idealize.ShloMosaic.Lib.ValueLayout

noncomputable section

namespace Cert.Attn.KernelValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid, decided point by point: the input rows' window and the output window are on block
    `t` at point `t`; every parameter window stays on its one block. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

/-- The specification's result of the argument arrays as launched. -/
abbrev wholeResult (c : Dev nD) : S524288x128.Idx → EReal :=
  Cert.Attn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Window 0's block at point `t` is rows `2048·t …` of the input array. -/
theorem block0_apply (c : Dev nD) (t : Fin cfg0.N) (p : Fin 2048) (k : Fin 128) (n : Fin 524288) (hn : n.val = t.val * 2048 + p.val) :
    (iblk m c 0 t : Vec Ideal S2048x128 .f32) (ix2 p k) = ((m ((c : Thread nD τ).loc main_arg0)) : S524288x128.Idx → EReal) (ix2 n k) := by
  have hi : win0_0.index t (0 : Fin 2) = t.val ∧ win0_0.index t (1 : Fin 2) = 0 := ⟨(idx_facts t).1, (idx_facts t).2.1⟩
  unfold iblk
  rw [View.read_apply]
  show (V m c main_arg0 : S524288x128.Idx → EReal) (((cfg0.win 0).blk t).view.emb (ix2 p k)) = _
  have he : ((cfg0.win 0).blk t).view.emb (ix2 p k) = ix2 n k := funext fun a => Fin.ext (by
    match a with
    | ⟨0, _⟩ => show win0_0.index t (0 : Fin 2) * 2048 + 1 * p.val = n.val; rw [hi.1, hn]; omega
    | ⟨1, _⟩ => show win0_0.index t (1 : Fin 2) * 128 + 1 * k.val = k.val; rw [hi.2]; omega)
  rw [he, V_main_arg0]

/-- The array window 1 stages is argument `main_arg1` transposed. -/
theorem V_main_v0 (c : Dev nD) : (V m c main_v0 : S128x128.Idx → EReal) = transpose S128x128 [1, 0] ((m ((c : Thread nD τ).loc main_arg1)) : S128x128.Idx → EReal) transposes_S128x128_S128x128_1_0 := by
  dsimp only [V, hostOps0]; after_results

/-- Window 1's block is that whole array at every point: entry `(k, c')` is the argument's `(c', k)`. -/
theorem block1_apply (c : Dev nD) (t : Fin cfg0.N) (k c' : Fin 128) :
    (iblk m c 1 t : Vec Ideal S128x128 .f32) (ix2 k c') = ((m ((c : Thread nD τ).loc main_arg1)) : S128x128.Idx → EReal) (ix2 c' k) := by
  have hi : win0_1.index t (0 : Fin 2) = 0 ∧ win0_1.index t (1 : Fin 2) = 0 := ⟨(idx_facts t).2.2.1, (idx_facts t).2.2.2.1⟩
  unfold iblk
  rw [View.read_apply]
  show (V m c main_v0 : S128x128.Idx → EReal) (((cfg0.win 1).blk t).view.emb (ix2 k c')) = _
  have he : ((cfg0.win 1).blk t).view.emb (ix2 k c') = ix2 k c' := funext fun a => Fin.ext (by
    match a with
    | ⟨0, _⟩ => show win0_1.index t (0 : Fin 2) * 128 + 1 * k.val = k.val; rw [hi.1]; omega
    | ⟨1, _⟩ => show win0_1.index t (1 : Fin 2) * 128 + 1 * c'.val = c'.val; rw [hi.2]; omega)
  rw [he, V_main_v0]
  exact transpose_ix2_apply _ _ k c'

/-- The array window 3 stages is argument `main_arg3` transposed. -/
theorem V_main_v1 (c : Dev nD) : (V m c main_v1 : S128x128.Idx → EReal) = transpose S128x128 [1, 0] ((m ((c : Thread nD τ).loc main_arg3)) : S128x128.Idx → EReal) transposes_S128x128_S128x128_1_0 := by
  dsimp only [V, hostOps0]; after_results

/-- Window 3's block is that whole array at every point: entry `(k, c')` is the argument's `(c', k)`. -/
theorem block3_apply (c : Dev nD) (t : Fin cfg0.N) (k c' : Fin 128) :
    (iblk m c 3 t : Vec Ideal S128x128 .f32) (ix2 k c') = ((m ((c : Thread nD τ).loc main_arg3)) : S128x128.Idx → EReal) (ix2 c' k) := by
  have hi : win0_3.index t (0 : Fin 2) = 0 ∧ win0_3.index t (1 : Fin 2) = 0 := ⟨(idx_facts t).2.2.2.2.2.2.1, (idx_facts t).2.2.2.2.2.2.2.1⟩
  unfold iblk
  rw [View.read_apply]
  show (V m c main_v1 : S128x128.Idx → EReal) (((cfg0.win 3).blk t).view.emb (ix2 k c')) = _
  have he : ((cfg0.win 3).blk t).view.emb (ix2 k c') = ix2 k c' := funext fun a => Fin.ext (by
    match a with
    | ⟨0, _⟩ => show win0_3.index t (0 : Fin 2) * 128 + 1 * k.val = k.val; rw [hi.1]; omega
    | ⟨1, _⟩ => show win0_3.index t (1 : Fin 2) * 128 + 1 * c'.val = c'.val; rw [hi.2]; omega)
  rw [he, V_main_v1]
  exact transpose_ix2_apply _ _ k c'

/-- The array window 5 stages is argument `main_arg5` transposed. -/
theorem V_main_v2 (c : Dev nD) : (V m c main_v2 : S128x128.Idx → EReal) = transpose S128x128 [1, 0] ((m ((c : Thread nD τ).loc main_arg5)) : S128x128.Idx → EReal) transposes_S128x128_S128x128_1_0 := by
  dsimp only [V, hostOps0]; after_results

/-- Window 5's block is that whole array at every point: entry `(k, c')` is the argument's `(c', k)`. -/
theorem block5_apply (c : Dev nD) (t : Fin cfg0.N) (k c' : Fin 128) :
    (iblk m c 5 t : Vec Ideal S128x128 .f32) (ix2 k c') = ((m ((c : Thread nD τ).loc main_arg5)) : S128x128.Idx → EReal) (ix2 c' k) := by
  have hi : win0_5.index t (0 : Fin 2) = 0 ∧ win0_5.index t (1 : Fin 2) = 0 := ⟨(idx_facts t).2.2.2.2.2.2.2.2.2.2.1, (idx_facts t).2.2.2.2.2.2.2.2.2.2.2.1⟩
  unfold iblk
  rw [View.read_apply]
  show (V m c main_v2 : S128x128.Idx → EReal) (((cfg0.win 5).blk t).view.emb (ix2 k c')) = _
  have he : ((cfg0.win 5).blk t).view.emb (ix2 k c') = ix2 k c' := funext fun a => Fin.ext (by
    match a with
    | ⟨0, _⟩ => show win0_5.index t (0 : Fin 2) * 128 + 1 * k.val = k.val; rw [hi.1]; omega
    | ⟨1, _⟩ => show win0_5.index t (1 : Fin 2) * 128 + 1 * c'.val = c'.val; rw [hi.2]; omega)
  rw [he, V_main_v2]
  exact transpose_ix2_apply _ _ k c'

/-- The array window 7 stages is argument `main_arg7` transposed. -/
theorem V_main_v3 (c : Dev nD) : (V m c main_v3 : S128x128.Idx → EReal) = transpose S128x128 [1, 0] ((m ((c : Thread nD τ).loc main_arg7)) : S128x128.Idx → EReal) transposes_S128x128_S128x128_1_0 := by
  dsimp only [V, hostOps0]; after_results

/-- Window 7's block is that whole array at every point: entry `(k, c')` is the argument's `(c', k)`. -/
theorem block7_apply (c : Dev nD) (t : Fin cfg0.N) (k c' : Fin 128) :
    (iblk m c 7 t : Vec Ideal S128x128 .f32) (ix2 k c') = ((m ((c : Thread nD τ).loc main_arg7)) : S128x128.Idx → EReal) (ix2 c' k) := by
  have hi : win0_7.index t (0 : Fin 2) = 0 ∧ win0_7.index t (1 : Fin 2) = 0 := ⟨(idx_facts t).2.2.2.2.2.2.2.2.2.2.2.2.2.2.1, (idx_facts t).2.2.2.2.2.2.2.2.2.2.2.2.2.2.2.1⟩
  unfold iblk
  rw [View.read_apply]
  show (V m c main_v3 : S128x128.Idx → EReal) (((cfg0.win 7).blk t).view.emb (ix2 k c')) = _
  have he : ((cfg0.win 7).blk t).view.emb (ix2 k c') = ix2 k c' := funext fun a => Fin.ext (by
    match a with
    | ⟨0, _⟩ => show win0_7.index t (0 : Fin 2) * 128 + 1 * k.val = k.val; rw [hi.1]; omega
    | ⟨1, _⟩ => show win0_7.index t (1 : Fin 2) * 128 + 1 * c'.val = c'.val; rw [hi.2]; omega)
  rw [he, V_main_v3]
  exact transpose_ix2_apply _ _ k c'

/-- The array window 2 stages is argument `main_arg2` as one row. -/
theorem V_main_v4 (c : Dev nD) : (V m c main_v4 : S1x128.Idx → EReal) = shapeCast S1x128 ((m ((c : Thread nD τ).loc main_arg2)) : S128.Idx → EReal) shapeCasts_S128_S1x128 := by
  dsimp only [V, hostOps0]; after_results; rfl

/-- Window 2's block is that row at every point: entry `(0, c')` is the argument's `c'`. -/
theorem block2_apply (c : Dev nD) (t : Fin cfg0.N) (c' : Fin 128) :
    (iblk m c 2 t : Vec Ideal S1x128 .f32) (ix2 (0 : Fin 1) c') = ((m ((c : Thread nD τ).loc main_arg2)) : S128.Idx → EReal) (ix1 c') := by
  have hi : win0_2.index t (0 : Fin 2) = 0 ∧ win0_2.index t (1 : Fin 2) = 0 := ⟨(idx_facts t).2.2.2.2.1, (idx_facts t).2.2.2.2.2.1⟩
  unfold iblk
  rw [View.read_apply]
  show (V m c main_v4 : S1x128.Idx → EReal) (((cfg0.win 2).blk t).view.emb (ix2 (0 : Fin 1) c')) = _
  have he : ((cfg0.win 2).blk t).view.emb (ix2 (0 : Fin 1) c') = ix2 (0 : Fin 1) c' := funext fun a => Fin.ext (by
    match a with
    | ⟨0, _⟩ => show win0_2.index t (0 : Fin 2) * 1 + 1 * 0 = 0; rw [hi.1]
    | ⟨1, _⟩ => show win0_2.index t (1 : Fin 2) * 128 + 1 * c'.val = c'.val; rw [hi.2]; omega)
  rw [he, V_main_v4]
  exact shapeCast_a_1a_apply _ _ (0 : Fin 1) c'

/-- The array window 4 stages is argument `main_arg4` as one row. -/
theorem V_main_v5 (c : Dev nD) : (V m c main_v5 : S1x128.Idx → EReal) = shapeCast S1x128 ((m ((c : Thread nD τ).loc main_arg4)) : S128.Idx → EReal) shapeCasts_S128_S1x128 := by
  dsimp only [V, hostOps0]; after_results; rfl

/-- Window 4's block is that row at every point: entry `(0, c')` is the argument's `c'`. -/
theorem block4_apply (c : Dev nD) (t : Fin cfg0.N) (c' : Fin 128) :
    (iblk m c 4 t : Vec Ideal S1x128 .f32) (ix2 (0 : Fin 1) c') = ((m ((c : Thread nD τ).loc main_arg4)) : S128.Idx → EReal) (ix1 c') := by
  have hi : win0_4.index t (0 : Fin 2) = 0 ∧ win0_4.index t (1 : Fin 2) = 0 := ⟨(idx_facts t).2.2.2.2.2.2.2.2.1, (idx_facts t).2.2.2.2.2.2.2.2.2.1⟩
  unfold iblk
  rw [View.read_apply]
  show (V m c main_v5 : S1x128.Idx → EReal) (((cfg0.win 4).blk t).view.emb (ix2 (0 : Fin 1) c')) = _
  have he : ((cfg0.win 4).blk t).view.emb (ix2 (0 : Fin 1) c') = ix2 (0 : Fin 1) c' := funext fun a => Fin.ext (by
    match a with
    | ⟨0, _⟩ => show win0_4.index t (0 : Fin 2) * 1 + 1 * 0 = 0; rw [hi.1]
    | ⟨1, _⟩ => show win0_4.index t (1 : Fin 2) * 128 + 1 * c'.val = c'.val; rw [hi.2]; omega)
  rw [he, V_main_v5]
  exact shapeCast_a_1a_apply _ _ (0 : Fin 1) c'

/-- The array window 6 stages is argument `main_arg6` as one row. -/
theorem V_main_v6 (c : Dev nD) : (V m c main_v6 : S1x128.Idx → EReal) = shapeCast S1x128 ((m ((c : Thread nD τ).loc main_arg6)) : S128.Idx → EReal) shapeCasts_S128_S1x128 := by
  dsimp only [V, hostOps0]; after_results; rfl

/-- Window 6's block is that row at every point: entry `(0, c')` is the argument's `c'`. -/
theorem block6_apply (c : Dev nD) (t : Fin cfg0.N) (c' : Fin 128) :
    (iblk m c 6 t : Vec Ideal S1x128 .f32) (ix2 (0 : Fin 1) c') = ((m ((c : Thread nD τ).loc main_arg6)) : S128.Idx → EReal) (ix1 c') := by
  have hi : win0_6.index t (0 : Fin 2) = 0 ∧ win0_6.index t (1 : Fin 2) = 0 := ⟨(idx_facts t).2.2.2.2.2.2.2.2.2.2.2.2.1, (idx_facts t).2.2.2.2.2.2.2.2.2.2.2.2.2.1⟩
  unfold iblk
  rw [View.read_apply]
  show (V m c main_v6 : S1x128.Idx → EReal) (((cfg0.win 6).blk t).view.emb (ix2 (0 : Fin 1) c')) = _
  have he : ((cfg0.win 6).blk t).view.emb (ix2 (0 : Fin 1) c') = ix2 (0 : Fin 1) c' := funext fun a => Fin.ext (by
    match a with
    | ⟨0, _⟩ => show win0_6.index t (0 : Fin 2) * 1 + 1 * 0 = 0; rw [hi.1]
    | ⟨1, _⟩ => show win0_6.index t (1 : Fin 2) * 128 + 1 * c'.val = c'.val; rw [hi.2]; omega)
  rw [he, V_main_v6]
  exact shapeCast_a_1a_apply _ _ (0 : Fin 1) c'

/-- The array window 8 stages is argument `main_arg8` as one row. -/
theorem V_main_v7 (c : Dev nD) : (V m c main_v7 : S1x128.Idx → EReal) = shapeCast S1x128 ((m ((c : Thread nD τ).loc main_arg8)) : S128.Idx → EReal) shapeCasts_S128_S1x128 := by
  dsimp only [V, hostOps0]; after_results; rfl

/-- Window 8's block is that row at every point: entry `(0, c')` is the argument's `c'`. -/
theorem block8_apply (c : Dev nD) (t : Fin cfg0.N) (c' : Fin 128) :
    (iblk m c 8 t : Vec Ideal S1x128 .f32) (ix2 (0 : Fin 1) c') = ((m ((c : Thread nD τ).loc main_arg8)) : S128.Idx → EReal) (ix1 c') := by
  have hi : win0_8.index t (0 : Fin 2) = 0 ∧ win0_8.index t (1 : Fin 2) = 0 := ⟨(idx_facts t).2.2.2.2.2.2.2.2.2.2.2.2.2.2.2.2.1, (idx_facts t).2.2.2.2.2.2.2.2.2.2.2.2.2.2.2.2.2.1⟩
  unfold iblk
  rw [View.read_apply]
  show (V m c main_v7 : S1x128.Idx → EReal) (((cfg0.win 8).blk t).view.emb (ix2 (0 : Fin 1) c')) = _
  have he : ((cfg0.win 8).blk t).view.emb (ix2 (0 : Fin 1) c') = ix2 (0 : Fin 1) c' := funext fun a => Fin.ext (by
    match a with
    | ⟨0, _⟩ => show win0_8.index t (0 : Fin 2) * 1 + 1 * 0 = 0; rw [hi.1]
    | ⟨1, _⟩ => show win0_8.index t (1 : Fin 2) * 128 + 1 * c'.val = c'.val; rw [hi.2]; omega)
  rw [he, V_main_v7]
  exact shapeCast_a_1a_apply _ _ (0 : Fin 1) c'

/-- WHAT POINT `t` WRITES BACK is block `t` of `result` of the argument arrays. -/
theorem flushed_eq (c : Dev nD) (t : Fin cfg0.N) :
    (dats m 0 c).flushed 9 t = ((cfg0.win 9).blk t).view.read (Elt Ideal) (wholeResult m c) := by
  rw [flushed9]
  unfold out0_9
  rw [View.canon_unit_zero hz]
  simp only [View.ld_unit_zero (S := S2048x128) hz, View.ld_unit_zero (S := S128x128) hz, View.ld_unit_zero (S := S1x128) hz]
  have hi : win0_9.index t (0 : Fin 2) = t.val ∧ win0_9.index t (1 : Fin 2) = 0 := ⟨(idx_facts t).2.2.2.2.2.2.2.2.2.2.2.2.2.2.2.2.2.2.1, (idx_facts t).2.2.2.2.2.2.2.2.2.2.2.2.2.2.2.2.2.2.2⟩
  funext y
  show k0_pay1 (F := Ideal) (k0_pay3 (iblk m c 7 t)) (k0_pay4 (iblk m c 0 t) (iblk m c 5 t) (iblk m c 6 t))
      (k0_pay5 (iblk m c 0 t) (iblk m c 1 t) (iblk m c 3 t) (iblk m c 2 t) (iblk m c 4 t)) (iblk m c 8 t) y
    = wholeResult m c (((cfg0.win 9).blk t).view.emb y)
  refine Cert.Attn.Kernel.block_value (iblk m c 0 t) (iblk m c 1 t) (iblk m c 2 t) (iblk m c 3 t) (iblk m c 4 t)
    (iblk m c 5 t) (iblk m c 6 t) (iblk m c 7 t) (iblk m c 8 t) _ _ _ _ _ _ _ _ _ (t.val * 2048)
    (fun p k n hn => block0_apply m c t p k n hn)
    (fun k c' => block1_apply m c t k c') (fun c' => block2_apply m c t c')
    (fun k c' => block3_apply m c t k c') (fun c' => block4_apply m c t c')
    (fun k c' => block5_apply m c t k c') (fun c' => block6_apply m c t c')
    (fun k c' => block7_apply m c t k c') (fun c' => block8_apply m c t c')
    y _ ?_ ?_
  · show win0_9.index t (0 : Fin 2) * 2048 + 1 * (y 0).val = t.val * 2048 + (y 0).val
    rw [hi.1]; omega
  · show win0_9.index t (1 : Fin 2) * 128 + 1 * (y 1).val = (y 1).val
    rw [hi.2]; omega

/-- An index of the result array is in point `t`'s block iff each coordinate is in the block's range on its axis. -/
theorem mem_blk (t : Fin cfg0.N) (i : S524288x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v8).slice (win0_9.rect t)).set ↔ _
  rw [View.set_slice_whole, Rect.mem_set_unit]
  exact Iff.rfl

/-- The 256 blocks cover the array: row `r` is in block `r / 2048`. -/
theorem cover (i : S524288x128.Idx) : ∃ t : Fin cfg0.N, (cfg0.win 9).flush t = true ∧ i ∈ ((cfg0.win 9).blk t).view.set := by
  have h0 : (i 0).val < 524288 := (i 0).isLt
  have h1 : (i 1).val < 128 := (i 1).isLt
  have hlt : (i 0).val / 2048 < cfg0.N := by
    show (i 0).val / 2048 < grid0.N
    rw [show grid0.N = 256 from N_0]; omega
  refine ⟨⟨(i 0).val / 2048, hlt⟩, flush0_9 _, ?_⟩
  rw [mem_blk]
  have hi : win0_9.index ⟨(i 0).val / 2048, hlt⟩ (0 : Fin 2) = (i 0).val / 2048
      ∧ win0_9.index ⟨(i 0).val / 2048, hlt⟩ (1 : Fin 2) = 0 :=
    ⟨(idx_facts ⟨(i 0).val / 2048, hlt⟩).2.2.2.2.2.2.2.2.2.2.2.2.2.2.2.2.2.2.1, (idx_facts ⟨(i 0).val / 2048, hlt⟩).2.2.2.2.2.2.2.2.2.2.2.2.2.2.2.2.2.2.2⟩
  intro a
  match a with
  | ⟨0, _⟩ =>
    show win0_9.index _ (0 : Fin 2) * 2048 ≤ (i 0).val ∧ (i 0).val < win0_9.index _ (0 : Fin 2) * 2048 + 2048
    rw [hi.1]; omega
  | ⟨1, _⟩ =>
    show win0_9.index _ (1 : Fin 2) * 128 ≤ (i 1).val ∧ (i 1).val < win0_9.index _ (1 : Fin 2) * 128 + 128
    rw [hi.2]; omega

/-- THE ARRAY after the run is `result` of the argument arrays. -/
theorem final (c : Dev nD) : (dats m 0 c).arrAt 9 cfg0.N = wholeResult m c :=
  (dats m 0 c).arrAt_eq_of_cover 9 (wholeResult m c) (fun t _ => flushed_eq m c t) cover

/-- The run, read: the result array at `result` of the arguments, the arguments unchanged. -/
theorem run : θ_run defs (onTc (τ := τ) (main (F := Ideal))) ⟨m, fun _ => 0, ρ⟩ fun r => ∀ c : Dev nD,
      r.2.mem ((c : Thread nD τ).loc main_v8) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Attn.KernelValue

end
-- ==== Proof.ScaleLaw.lean ====
/-
  The one place where the two programs spell a number differently.  The tiled program multiplies each score by
  the float word of one quarter; the whole-array program divides it by the square root of the float word of
  sixteen.  Sixteen is a perfect square, so its root is exactly four, and on the extended reals dividing by a
  nonzero real is multiplying by its reciprocal, at the infinities too: the two scalings are one function of
  the score, with no finiteness asked of it.
-/
import Idealize.ShloMosaic.PureOps.Ideal

noncomputable section

namespace Cert.Attn

open Idealize.ShloMosaic

/-- The word `0x3E800000` denotes one quarter. -/
theorem ofBits_quarter : Ideal.ofBits .f32 0x3E800000#32 = ((1 / 4 : ℝ) : EReal) := by
  simp [Ideal.ofBits, Ideal.ieee, -EReal.coe_mul]; norm_num

/-- The word `0x41800000` denotes sixteen. -/
theorem ofBits_sixteen : Ideal.ofBits .f32 0x41800000#32 = ((16 : ℝ) : EReal) := by
  simp [Ideal.ofBits, Ideal.ieee, -EReal.coe_mul]; norm_num

/-- The square root of sixteen is four. -/
theorem sqrt_sixteen : Ideal.sqrt ((16 : ℝ) : EReal) = ((4 : ℝ) : EReal) := by
  rw [Ideal.sqrt_coe, if_neg (by norm_num)]
  exact congrArg (fun r : ℝ => (r : EReal)) (by
    rw [show (16 : ℝ) = 4 ^ 2 by norm_num]; exact Real.sqrt_sq (by norm_num))

/-- Dividing by the root of sixteen is multiplying by one quarter, on every extended real. -/
theorem div_root_sixteen (x : EReal) :
    Ideal.div x (Ideal.sqrt (Ideal.ofBits .f32 0x41800000#32)) = x * Ideal.ofBits .f32 0x3E800000#32 := by
  rw [ofBits_sixteen, sqrt_sixteen, ofBits_quarter, Ideal.div_coe (by norm_num : (4 : ℝ) ≠ 0)]

end Cert.Attn

end
-- ==== Proof.ReferenceRow.lean ====
/-
  The whole-array program, read one row at a time.

  Every stage of the whole-array program is a function of the nine argument arrays.  Read at an index whose leading
  coordinate is the row `n`, each stage depends on row `n` of the input only, and is the matching stage of the
  row-local attention of `Cert.Attn`: the three affine maps, the split of a 128-vector into 8 heads of 16
  coordinates, the scaled scores with the heads contracted, the softmax of each score row (maximum, exponentials,
  their sum, the quotient), the mixing of the values, the merge back to 128 features, and the output map.  The
  last stage, read at `(n, c)`, is therefore `outRow` of row `n` at feature `c`, which is what `result` says.
-/
import proofs.«178139_j37237366456674_2_alg».proof.Proof.Gen.ReferenceIdeal.Read
import proofs.«178139_j37237366456674_2_alg».proof.Proof.RowAttention
import proofs.«178139_j37237366456674_2_alg».proof.Proof.ScaleLaw
import Idealize.ShloMosaic.Lib.ValueIdx
import Idealize.ShloMosaic.PureOps.Ideal.Laws
import Idealize.ShloMosaic.PureOps.Reduce

noncomputable section

namespace Cert.Attn.Reference

open Cert.ReferenceIdeal Cert.ReferenceIdeal.Gen Cert.ReferenceIdeal.Read Idealize.ShloMosaic Idealize.ShloMosaic.ValueIdx

/-- Row `n` of a [524288, 128] array. -/
abbrev row (x : (⟨S524288x128, .f32⟩ : BufTy).Contents (Elt Ideal)) (n : Fin 524288) : Fin 128 → EReal :=
  fun k => x (ix2 n k)

/-- A [128, 128] weight array as a function of output feature and input feature. -/
abbrev mat (W : (⟨S128x128, .f32⟩ : BufTy).Contents (Elt Ideal)) : Fin 128 → Fin 128 → EReal :=
  fun c k => W (ix2 c k)

/-- A [128] bias array as a function of the feature. -/
abbrev vec (b : (⟨S128, .f32⟩ : BufTy).Contents (Elt Ideal)) : Fin 128 → EReal :=
  fun c => b (ix1 c)

variable (x0 : (⟨S524288x128, .f32⟩ : BufTy).Contents (Elt Ideal))
  (x1 : (⟨S128x128, .f32⟩ : BufTy).Contents (Elt Ideal)) (x2 : (⟨S128, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-! ## The three affine maps

  A product of the input with a transposed weight array, plus the bias broadcast over the rows: at `(n, c)` the sum
  over `k` of `x[n, k] · W[c, k]`, plus `b[c]`. -/

/-- The left operand of the product at `(n, c)` and contraction index `k` is read at `(n, k)`. -/
theorem lidx_v1 (n : Fin 524288) (c k : Fin 128) : lidx_main_v1 (ix2 n c) k = ix2 n k :=
  funext fun a => Fin.ext (by match a with | ⟨0, _⟩ => rfl | ⟨1, _⟩ => rfl)

/-- The transposed weight array at `(k, c)` is the weight array at `(c, k)`. -/
theorem ridx_v1 (n : Fin 524288) (c k : Fin 128) : idx_main_v0 (ridx_main_v1 (ix2 n c) k) = ix2 c k :=
  funext fun a => Fin.ext (by match a with | ⟨0, _⟩ => rfl | ⟨1, _⟩ => rfl)

/-- The bias broadcast to `(n, c)` is the bias at `c`. -/
theorem bidx_v3 (n : Fin 524288) (c : Fin 128) : idx_main_v2 (idx_main_v3 (ix2 n c)) = ix1 c :=
  funext fun a => Fin.ext (by match a with | ⟨0, _⟩ => rfl)

/-- The query map at `(n, c)`. -/
theorem query_apply (n : Fin 524288) (c : Fin 128) :
    val_main_v4 (F := Ideal) x0 x1 x2 (ix2 n c) = lin (row x0 n) (mat x1) (vec x2) c := by
  rw [val_main_v4_apply, val_main_v1_apply, val_main_v3_apply, val_main_v2_apply, bidx_v3]
  simp only [Ideal.addf_def]
  unfold lin
  refine congrArg (· + x2 (ix1 c)) (Finset.sum_congr rfl fun k _ => ?_)
  rw [val_main_v0_apply, lidx_v1, ridx_v1]

/-- The key map at `(n, c)`: the same program text as the query map, on the key parameters. -/
theorem key_apply (n : Fin 524288) (c : Fin 128) :
    val_main_v9 (F := Ideal) x0 x3 x4 (ix2 n c) = lin (row x0 n) (mat x3) (vec x4) c :=
  query_apply x0 x3 x4 n c

/-- The value map at `(n, c)`: the same program text again, on the value parameters. -/
theorem value_apply (n : Fin 524288) (c : Fin 128) :
    val_main_v14 (F := Ideal) x0 x5 x6 (ix2 n c) = lin (row x0 n) (mat x5) (vec x6) c :=
  query_apply x0 x5 x6 n c

/-! ## The split into heads

  A row of 128 features is reshaped to 8 heads of 16 coordinates and the two axes are swapped: the element at
  `(n, d, h)` of the swapped array is feature `h·16 + d` of row `n`. -/

/-- Flat position `(n·8 + h)·16 + d` of the [524288, 8, 16] array is position `(n, h·16 + d)` of [524288, 128]. -/
theorem split_idx (n : Fin 524288) (d : Fin 16) (h : Fin 8) :
    idx_main_v15 (idx_main_v16 (ix3 n d h)) = ix2 n (feat h d) :=
  funext fun a => Fin.ext (by
    have hn := n.isLt; have hd := d.isLt; have hh := h.isLt
    match a with
    | ⟨0, _⟩ => show ((n.val * 8 + h.val) * 16 + d.val) / 128 = n.val; omega
    | ⟨1, _⟩ => show ((n.val * 8 + h.val) * 16 + d.val) % 128 = h.val * 16 + d.val; omega)

/-- The query, split: coordinate `d` of head `h` of row `n`. -/
theorem query_split (n : Fin 524288) (d : Fin 16) (h : Fin 8) :
    val_main_v16 (F := Ideal) x0 x1 x2 (ix3 n d h) = lin (row x0 n) (mat x1) (vec x2) (feat h d) := by
  rw [val_main_v16_apply, val_main_v15_apply, split_idx, query_apply]

/-- The key, split. -/
theorem key_split (n : Fin 524288) (d : Fin 16) (h : Fin 8) :
    val_main_v18 (F := Ideal) x0 x3 x4 (ix3 n d h) = lin (row x0 n) (mat x3) (vec x4) (feat h d) := by
  rw [val_main_v18_apply, val_main_v17_apply]
  exact (congrArg (val_main_v9 (F := Ideal) x0 x3 x4) (split_idx n d h)).trans (key_apply x0 x3 x4 n (feat h d))

/-- The value, split. -/
theorem value_split (n : Fin 524288) (d : Fin 16) (h : Fin 8) :
    val_main_v20 (F := Ideal) x0 x5 x6 (ix3 n d h) = lin (row x0 n) (mat x5) (vec x6) (feat h d) := by
  rw [val_main_v20_apply, val_main_v19_apply]
  exact (congrArg (val_main_v14 (F := Ideal) x0 x5 x6) (split_idx n d h)).trans (value_apply x0 x5 x6 n (feat h d))

/-! ## The scaled scores

  The product of the split query and the split key contracts the heads; the quotient by the square root of the
  word of sixteen is the product with the word of one quarter. -/

/-- The split query is read at `(n, d, h)` for the score of `(d, e)` and head `h`. -/
theorem lidx_v21 (n : Fin 524288) (d e : Fin 16) (h : Fin 8) : lidx_main_v21 (ix3 n d e) h = ix3 n d h :=
  funext fun a => Fin.ext (by match a with | ⟨0, _⟩ => rfl | ⟨1, _⟩ => rfl | ⟨2, _⟩ => rfl)

/-- The split key is read at `(n, e, h)`. -/
theorem ridx_v21 (n : Fin 524288) (d e : Fin 16) (h : Fin 8) : ridx_main_v21 (ix3 n d e) h = ix3 n e h :=
  funext fun a => Fin.ext (by match a with | ⟨0, _⟩ => rfl | ⟨1, _⟩ => rfl | ⟨2, _⟩ => rfl)

/-- The scaled score of coordinates `d` and `e` in row `n`. -/
theorem score_apply (n : Fin 524288) (d e : Fin 16) :
    val_main_v24 (F := Ideal) x0 x1 x2 x3 x4 (ix3 n d e)
      = score (lin (row x0 n) (mat x1) (vec x2)) (lin (row x0 n) (mat x3) (vec x4)) d e := by
  rw [val_main_v24_apply, val_main_v21_apply, val_main_v23_apply, val_main_v22_apply, val_main_cst_apply]
  simp only [Ideal.hostDivf_def, Ideal.hostUnary_sqrt_def, Ideal.ofBits_def]
  rw [div_root_sixteen]
  unfold score quarter
  refine congrArg (· * Ideal.ofBits .f32 0x3E800000#32) (Finset.sum_congr rfl fun h _ => ?_)
  rw [lidx_v21, ridx_v21, query_split, key_split]

/-! ## The maximum of a score row

  The reduction over the last axis, with a maximum as its body and the word of minus infinity as its initial
  value, is at `(n, d)` the fold of `max` from that word over the sixteen entries `(n, d, e)`; the program then takes
  the maximum of the word and that fold once more. -/

/-- Index `(n, d)` of the reduced array with coordinate `e` put back on the last axis is `(n, d, e)`. -/
theorem lift_last (h : S524288x16x16.Reduces [2] S524288x16) (n : Fin 524288) (d : Fin 16)
    (e : Fin (S524288x16x16.size 2)) : h.lift (ix2 n d) e = ix3 n d (⟨e.val, e.isLt⟩ : Fin 16) :=
  funext fun a => Fin.ext (by match a with | ⟨0, _⟩ => rfl | ⟨1, _⟩ => rfl | ⟨2, _⟩ => rfl)

/-- The maximum-reduction of any [524288, 16, 16] array from the word of minus infinity, at `(n, d)`. -/
theorem reduceMax_apply (y : (⟨S524288x16x16, .f32⟩ : BufTy).Contents (Elt Ideal)) (n : Fin 524288) (d : Fin 16) :
    Host.reduce (FloatOps.maximumf (F := Ideal) (φ := .f32)) y (val_main_cst_0 (F := Ideal))
        reducesTo_S524288x16x16_S524288x16_d2 h_S_ (ix2 n d)
      = (Finset.univ : Finset (Fin 16)).fold max negInf (fun e => y (ix3 n d e)) := by
  have h : S524288x16x16.Reduces [2] S524288x16 := by decide
  refine (Host.reduce_eq_fold_single (FloatOps.maximumf (F := Ideal) (φ := .f32)) y (val_main_cst_0 (F := Ideal))
    reducesTo_S524288x16x16_S524288x16_d2 h h_S_ (ix2 n d)).trans ?_
  have hf : (y ∘ h.lift (ix2 n d)) = fun e : Fin 16 => y (ix3 n d e) :=
    funext fun e => congrArg y (lift_last h n d e)
  exact congrArg (fun f => Finset.fold max negInf f (Finset.univ : Finset (Fin 16))) hf

/-- The fold of the maximum over score row `d` of row `n`. -/
theorem foldMax_apply (n : Fin 524288) (d : Fin 16) :
    val_main_v25 (F := Ideal) x0 x1 x2 x3 x4 (ix2 n d)
      = (Finset.univ : Finset (Fin 16)).fold max negInf
          (score (lin (row x0 n) (mat x1) (vec x2)) (lin (row x0 n) (mat x3) (vec x4)) d) := by
  unfold val_main_v25
  rw [reduceMax_apply]
  exact congrArg (fun f => Finset.fold max negInf f (Finset.univ : Finset (Fin 16)))
    (funext fun e => score_apply x0 x1 x2 x3 x4 n d e)

/-- The row maximum as the program takes it: the word of minus infinity against the fold. -/
theorem rowMax_apply (n : Fin 524288) (d : Fin 16) :
    val_main_v27 (F := Ideal) x0 x1 x2 x3 x4 (ix2 n d)
      = rowMax (score (lin (row x0 n) (mat x1) (vec x2)) (lin (row x0 n) (mat x3) (vec x4)) d) := by
  rw [val_main_v27_apply, val_main_v26_apply, val_main_cst_1_apply, foldMax_apply]
  simp only [Ideal.maximumf_def, Ideal.ofBits_def]
  rfl

/-! ## The softmax of a score row

  The row maximum is broadcast back along the last axis and subtracted, the difference is exponentiated, the
  exponentials of a row are summed from zero, the sum is broadcast back and divides each exponential. -/

/-- A value at `(n, d)` broadcast to `(n, d, e)` through a unit last axis is read at `(n, d)`. -/
theorem bidx_v29 (n : Fin 524288) (d e : Fin 16) : idx_main_v28 (idx_main_v29 (ix3 n d e)) = ix2 n d :=
  funext fun a => Fin.ext (by match a with | ⟨0, _⟩ => rfl | ⟨1, _⟩ => rfl)

/-- The same for the second broadcast of this kind. -/
theorem bidx_v34 (n : Fin 524288) (d e : Fin 16) : idx_main_v33 (idx_main_v34 (ix3 n d e)) = ix2 n d :=
  funext fun a => Fin.ext (by match a with | ⟨0, _⟩ => rfl | ⟨1, _⟩ => rfl)

/-- Entry `e` of the row `(n, d)` being summed is read at `(n, d, e)`. -/
theorem sidx_v32 (n : Fin 524288) (d e : Fin 16) : idx_main_v32 (ix2 n d) e = ix3 n d e :=
  funext fun a => Fin.ext (by match a with | ⟨0, _⟩ => rfl | ⟨1, _⟩ => rfl | ⟨2, _⟩ => rfl)

/-- The exponential of a score less its row's maximum. -/
theorem expo_apply (n : Fin 524288) (d e : Fin 16) :
    val_main_v31 (F := Ideal) x0 x1 x2 x3 x4 (ix3 n d e)
      = expo (score (lin (row x0 n) (mat x1) (vec x2)) (lin (row x0 n) (mat x3) (vec x4)) d) e := by
  rw [val_main_v31_apply, val_main_v30_apply, val_main_v29_apply, val_main_v28_apply, bidx_v29, rowMax_apply,
    score_apply]
  simp only [Ideal.hostUnary_exp_def, Ideal.subf_def]
  rfl

/-- The sum of a row's exponentials, taken from zero. -/
theorem expoSum_apply (n : Fin 524288) (d : Fin 16) :
    val_main_v32 (F := Ideal) x0 x1 x2 x3 x4 (ix2 n d)
      = ∑ e : Fin 16, expo (score (lin (row x0 n) (mat x1) (vec x2)) (lin (row x0 n) (mat x3) (vec x4)) d) e := by
  rw [val_main_v32_apply, val_main_cst_2_apply]
  simp only [Ideal.ofBits_def]
  rw [Ideal.ofBits_zero_f32, zero_add]
  refine Finset.sum_congr rfl fun e _ => ?_
  rw [sidx_v32, expo_apply]

/-- The softmax weight of entry `e` in score row `d` of row `n`. -/
theorem weight_apply (n : Fin 524288) (d e : Fin 16) :
    val_main_v35 (F := Ideal) x0 x1 x2 x3 x4 (ix3 n d e)
      = weight (score (lin (row x0 n) (mat x1) (vec x2)) (lin (row x0 n) (mat x3) (vec x4)) d) e := by
  rw [val_main_v35_apply, val_main_v34_apply, val_main_v33_apply, bidx_v34, expoSum_apply, expo_apply]
  simp only [Ideal.hostDivf_def]
  rfl

/-! ## The mixed values, laid back as features

  The product of the weights with the split values contracts the second score coordinate; the two trailing axes
  are swapped back and the 8 heads of 16 coordinates are merged into 128 features, so that feature `j` of row `n`
  is the mixed value of coordinate `j mod 16` and head `j / 16`. -/

/-- The weights are read at `(n, d, e)` for the mixed value of `(d, h)` and entry `e`. -/
theorem lidx_v36 (n : Fin 524288) (d e : Fin 16) (h : Fin 8) : lidx_main_v36 (ix3 n d h) e = ix3 n d e :=
  funext fun a => Fin.ext (by match a with | ⟨0, _⟩ => rfl | ⟨1, _⟩ => rfl | ⟨2, _⟩ => rfl)

/-- The split values are read at `(n, e, h)`. -/
theorem ridx_v36 (n : Fin 524288) (d e : Fin 16) (h : Fin 8) : ridx_main_v36 (ix3 n d h) e = ix3 n e h :=
  funext fun a => Fin.ext (by match a with | ⟨0, _⟩ => rfl | ⟨1, _⟩ => rfl | ⟨2, _⟩ => rfl)

/-- The values of head `h` mixed by the weights of score row `d`, in row `n`. -/
theorem mixed_apply (n : Fin 524288) (d : Fin 16) (h : Fin 8) :
    val_main_v36 (F := Ideal) x0 x1 x2 x3 x4 x5 x6 (ix3 n d h)
      = mixed (lin (row x0 n) (mat x1) (vec x2)) (lin (row x0 n) (mat x3) (vec x4))
          (lin (row x0 n) (mat x5) (vec x6)) d h := by
  rw [val_main_v36_apply]
  unfold mixed
  refine Finset.sum_congr rfl fun e _ => ?_
  rw [lidx_v36, ridx_v36, weight_apply, value_split]

/-- Feature `j` of row `n` sits at `(n, j / 16, j mod 16)` of the [524288, 8, 16] array, which after the swap of the
    trailing axes is `(n, j mod 16, j / 16)`. -/
theorem merge_idx (n : Fin 524288) (j : Fin 128) :
    idx_main_v37 (idx_main_v38 (ix2 n j)) = ix3 n (coordOf j) (headOf j) :=
  funext fun a => Fin.ext (by
    have hn := n.isLt; have hj := j.isLt
    match a with
    | ⟨0, _⟩ => show (n.val * 128 + j.val) / 128 = n.val; omega
    | ⟨1, _⟩ => show (n.val * 128 + j.val) % 16 = j.val % 16; omega
    | ⟨2, _⟩ => show (n.val * 128 + j.val) / 16 % 8 = j.val / 16; omega)

/-- The mixed values as 128 features of row `n`. -/
theorem attended_apply (n : Fin 524288) (j : Fin 128) :
    val_main_v38 (F := Ideal) x0 x1 x2 x3 x4 x5 x6 (ix2 n j)
      = attended (lin (row x0 n) (mat x1) (vec x2)) (lin (row x0 n) (mat x3) (vec x4))
          (lin (row x0 n) (mat x5) (vec x6)) j := by
  rw [val_main_v38_apply, val_main_v37_apply, merge_idx, mixed_apply]
  rfl

/-! ## The output map

  The same shape of program as the three input maps, applied to the merged features. -/

/-- The merged features are read at `(n, k)` for output `(n, c)` and contraction index `k`. -/
theorem lidx_v40 (n : Fin 524288) (c k : Fin 128) : lidx_main_v40 (ix2 n c) k = ix2 n k :=
  funext fun a => Fin.ext (by match a with | ⟨0, _⟩ => rfl | ⟨1, _⟩ => rfl)

/-- The transposed output weights at `(k, c)` are the output weights at `(c, k)`. -/
theorem ridx_v40 (n : Fin 524288) (c k : Fin 128) : idx_main_v39 (ridx_main_v40 (ix2 n c) k) = ix2 c k :=
  funext fun a => Fin.ext (by match a with | ⟨0, _⟩ => rfl | ⟨1, _⟩ => rfl)

/-- The output bias broadcast to `(n, c)` is the bias at `c`. -/
theorem bidx_v42 (n : Fin 524288) (c : Fin 128) : idx_main_v41 (idx_main_v42 (ix2 n c)) = ix1 c :=
  funext fun a => Fin.ext (by match a with | ⟨0, _⟩ => rfl)

/-- The last stage at `(n, c)`: the result row of input row `n`, at feature `c`. -/
theorem outRow_apply (n : Fin 524288) (c : Fin 128) :
    val_main_v43 (F := Ideal) x0 x1 x2 x3 x4 x5 x6 x7 x8 (ix2 n c)
      = outRow (row x0 n) (mat x1) (vec x2) (mat x3) (vec x4) (mat x5) (vec x6) (mat x7) (vec x8) c := by
  rw [val_main_v43_apply, val_main_v40_apply, val_main_v42_apply, val_main_v41_apply, bidx_v42]
  simp only [Ideal.addf_def]
  unfold outRow lin
  refine congrArg (· + x8 (ix1 c)) (Finset.sum_congr rfl fun k _ => ?_)
  rw [val_main_v39_apply, lidx_v40, ridx_v40, attended_apply]
  rfl

/-! ## The whole array -/

/-- The whole-array program computes, at every index, the row-local attention of that index's row. -/
theorem reference_is_result (x0 : (⟨S524288x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    Cert.ReferenceIdeal.Read.val_main_v43 (F := Ideal) x0 x1 x2 x3 x4 x5 x6 x7 x8 = Cert.Attn.result x0 x1 x2 x3 x4 x5 x6 x7 x8 := by
  funext i
  obtain ⟨n, c, rfl⟩ : ∃ (n : Fin 524288) (c : Fin 128), i = ix2 n c := ⟨i 0, i 1, eq_ix2 i⟩
  exact outRow_apply x0 x1 x2 x3 x4 x5 x6 x7 x8 n c

end Cert.Attn.Reference

end
-- ==== Proof.lean ====
/-
  Row-local attention over the coordinates of the heads, tiled against whole.

  Both programs send each row of a [524288, 128] input through three affine maps, read each 128-vector as 8 heads
  of 16 coordinates, form the 16×16 scores between coordinates with the heads contracted and scaled by 1/√16, take a
  softmax of each score row, mix the values with the weights, lay the result back as 128 features and apply an
  output affine map.  One program does this 2048 rows at a time over a grid of 256 blocks, with the four weight
  matrices transposed and the biases turned into rows beforehand; the other does it on the whole array.

  No row's result depends on another row (Proof/RowAttention.lean states the result of one row, `outRow`, and the
  whole array `result` as that function applied row by row).  The tiled program's body stores, for each block, the
  same rows of `result` (Proof/KernelStages.lean, Proof/KernelRow.lean), and the 256 blocks tile the array
  (Proof/KernelValue.lean); the whole-array program's last stage is `result` read index by index
  (Proof/ReferenceRow.lean).  The only arithmetic that differs is the scaling of the scores, a product with one
  quarter against a quotient by the root of sixteen: one function on the extended reals (Proof/ScaleLaw.lean).
  Every other step is the same sum, maximum, exponential or quotient on both sides, so nothing is asked of the
  inputs: the precondition is not used.

  Each program runs to the end without a fault and leaves its arguments as they were: the two tiled programs by
  the frame of their pipelined region, the whole-array program by its run read back.  The idealized tiled
  program is the tiled program's own text read on the extended reals, with no rewrite to account for.
-/
import proofs.«178139_j37237366456674_2_alg».proof.Defs
import proofs.«178139_j37237366456674_2_alg».proof.Proof.Gen.Kernel
import proofs.«178139_j37237366456674_2_alg».proof.Proof.Gen.Kernel.Skeleton
import proofs.«178139_j37237366456674_2_alg».proof.Proof.Gen.Kernel.Launch
import proofs.«178139_j37237366456674_2_alg».proof.Proof.Gen.Kernel.Points
import proofs.«178139_j37237366456674_2_alg».proof.Proof.Gen.Kernel.Frame
import proofs.«178139_j37237366456674_2_alg».proof.Proof.Gen.KernelIdeal
import proofs.«178139_j37237366456674_2_alg».proof.Proof.Gen.KernelIdeal.Skeleton
import proofs.«178139_j37237366456674_2_alg».proof.Proof.Gen.KernelIdeal.Launch
import proofs.«178139_j37237366456674_2_alg».proof.Proof.Gen.KernelIdeal.Points
import proofs.«178139_j37237366456674_2_alg».proof.Proof.Gen.KernelIdeal.Frame
import proofs.«178139_j37237366456674_2_alg».proof.Proof.Gen.KernelIdeal.Value
import proofs.«178139_j37237366456674_2_alg».proof.Proof.Gen.ReferenceIdeal
import proofs.«178139_j37237366456674_2_alg».proof.Proof.Gen.ReferenceIdeal.Run
import proofs.«178139_j37237366456674_2_alg».proof.Proof.Gen.ReferenceIdeal.Read
import proofs.«178139_j37237366456674_2_alg».proof.Proof.Gen.Pre_finite_inputs
import proofs.«178139_j37237366456674_2_alg».proof.Proof.KernelValue
import proofs.«178139_j37237366456674_2_alg».proof.Proof.ReferenceRow
import Idealize.ShloMosaic.Adequacy
import Idealize.ShloMosaic.Init

noncomputable section

namespace Cert.Proof

open Idealize.ShloMosaic Idealize.ShloMosaic.TcCoe Idealize.SL.Sem

/-- The tiled program, as printed, runs and keeps its arguments. -/
theorem frame_kernel : Cert.frame_Kernel := fun m ρ _ => Cert.Kernel.Gen.frame m ρ

/-- The tiled program on the extended reals runs and keeps its arguments. -/
theorem frame_kernelIdeal : Cert.frame_KernelIdeal := fun m ρ _ => Cert.KernelIdeal.Gen.frame m ρ

/-- The whole-array program runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments, both programs end with the result array at `result` of those
    arguments: the tiled one block by block, the whole-array one index by index. -/
theorem algebraic : Cert.algebraic_KernelIdeal_ReferenceIdeal := by
  intro m ρ m' ρ' _ hagree
  refine ⟨fun c => Cert.Attn.KernelValue.wholeResult m c, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v43_eq, Cert.Attn.Reference.reference_is_result, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
